-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x4096 : Shape := ⟨2, ![512, 4096]⟩
abbrev S4096x512 : Shape := ⟨2, ![4096, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x4096 .f32) (main_arg5 : FVec F S512x4096 .f32) (main_arg6 : FVec F S4096x512 .f32) (main_arg7 : FVec F S512 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_v33

def fn {F : FTy → Type} [FloatOps F] (main_arg0 : FVec F S32768x512 .f32) (main_arg1 : FVec F S32768x512 .f32) (main_arg2 : FVec F S32768x512 .f32) (main_arg3 : FVec F S512x4096 .f32) (main_arg4 : FVec F S512x4096 .f32) (main_arg5 : FVec F S512x4096 .f32) (main_arg6 : FVec F S4096x512 .f32) (main_arg7 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_arg5 main_arg6 main_arg7 main_v13 main_v16
-- ==== Kernel.lean ====
abbrev S32768x512 : Shape := ⟨2, ![32768, 512]⟩
abbrev S512x4096 : Shape := ⟨2, ![512, 4096]⟩
abbrev S4096x512 : Shape := ⟨2, ![4096, 512]⟩
abbrev S512 : Shape := ⟨1, ![512]⟩
abbrev S1x512 : Shape := ⟨2, ![1, 512]⟩
abbrev S128x512 : Shape := ⟨2, ![128, 512]⟩
abbrev S128x4096 : Shape := ⟨2, ![128, 4096]⟩
abbrev S128x8x512 : Shape := ⟨3, ![128, 8, 512]⟩
abbrev S128x1x512 : Shape := ⟨3, ![128, 1, 512]⟩
abbrev S128x8 : Shape := ⟨2, ![128, 8]⟩
abbrev S128x1x8 : Shape := ⟨3, ![128, 1, 8]⟩
abbrev S128x8x8 : Shape := ⟨3, ![128, 8, 8]⟩
abbrev S128x8x1 : Shape := ⟨3, ![128, 8, 1]⟩

abbrev nBuf : Space → Nat
  | .hbm => 14
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S4096x512, .f32⟩
  | .hbm, ⟨7, _⟩ => ⟨S512, .f32⟩
  | .hbm, ⟨8, _⟩ => ⟨S512x4096, .bf16⟩
  | .hbm, ⟨9, _⟩ => ⟨S512x4096, .bf16⟩
  | .hbm, ⟨10, _⟩ => ⟨S512x4096, .bf16⟩
  | .hbm, ⟨11, _⟩ => ⟨S4096x512, .bf16⟩
  | .hbm, ⟨12, _⟩ => ⟨S1x512, .f32⟩
  | .hbm, ⟨13, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S4096x512, .bf16⟩
  | .local _ .vmem, ⟨10, _⟩ => ⟨S1x512, .f32⟩
  | .local _ .vmem, ⟨11, _⟩ => ⟨S128x512, .f32⟩
  | .local _ .vmem, ⟨12, _⟩ => ⟨S128x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S512_S1x512 : S512.ShapeCasts S1x512
  inb_S128x512_S128x512_0_0 : ∀ a, (![0, 0] : Fin 2 → Nat) a + S128x512.size a ≤ S128x512.size a
  h_S128x512 : 0 < S128x512.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S128x4096_S128x8x512 : S128x4096.ShapeCasts S128x8x512
  slices_S128x8x512_o0_0_0_S128x1x512 : S128x8x512.Slices ![0, 0, 0] S128x1x512
  shapeCasts_S128x1x512_S128x512 : S128x1x512.ShapeCasts S128x512
  shapeCasts_S128x512_S128x1x512 : S128x512.ShapeCasts S128x1x512
  broadcasts_S128x1x512_S128x8x512 : S128x1x512.Broadcasts S128x8x512
  reduces_S128x8x512_S128x8 : S128x8x512.Reduces [2] S128x8
  slices_S128x8x512_o0_1_0_S128x1x512 : S128x8x512.Slices ![0, 1, 0] S128x1x512
  slices_S128x8x512_o0_2_0_S128x1x512 : S128x8x512.Slices ![0, 2, 0] S128x1x512
  slices_S128x8x512_o0_3_0_S128x1x512 : S128x8x512.Slices ![0, 3, 0] S128x1x512
  slices_S128x8x512_o0_4_0_S128x1x512 : S128x8x512.Slices ![0, 4, 0] S128x1x512
  slices_S128x8x512_o0_5_0_S128x1x512 : S128x8x512.Slices ![0, 5, 0] S128x1x512
  slices_S128x8x512_o0_6_0_S128x1x512 : S128x8x512.Slices ![0, 6, 0] S128x1x512
  slices_S128x8x512_o0_7_0_S128x1x512 : S128x8x512.Slices ![0, 7, 0] S128x1x512
  shapeCasts_S128x8_S128x1x8 : S128x8.ShapeCasts S128x1x8
  concatenates_S128x1x8_S128x1x8_S128x1x8_S128x1x8_S128x1x8_S128x1x8_S128x1x8_S128x1x8_S128x8x8_d1 : Shape.Concatenates [S128x1x8, S128x1x8, S128x1x8, S128x1x8, S128x1x8, S128x1x8, S128x1x8, S128x1x8] S128x8x8 1
  reduces_S128x8x8_S128x8 : S128x8x8.Reduces [2] S128x8
  shapeCasts_S128x8_S128x8x1 : S128x8.ShapeCasts S128x8x1
  broadcasts_S128x8x1_S128x8x8 : S128x8x1.Broadcasts S128x8x8
  slices_S128x8x8_o0_0_0_S128x1x8 : S128x8x8.Slices ![0, 0, 0] S128x1x8
  shapeCasts_S128x1x8_S128x8 : S128x1x8.ShapeCasts S128x8
  broadcasts_S128x8x1_S128x8x512 : S128x8x1.Broadcasts S128x8x512
  reduces_S128x8x512_S128x512 : S128x8x512.Reduces [1] S128x512
  slices_S128x8x8_o0_1_0_S128x1x8 : S128x8x8.Slices ![0, 1, 0] S128x1x8
  slices_S128x8x8_o0_2_0_S128x1x8 : S128x8x8.Slices ![0, 2, 0] S128x1x8
  slices_S128x8x8_o0_3_0_S128x1x8 : S128x8x8.Slices ![0, 3, 0] S128x1x8
  slices_S128x8x8_o0_4_0_S128x1x8 : S128x8x8.Slices ![0, 4, 0] S128x1x8
  slices_S128x8x8_o0_5_0_S128x1x8 : S128x8x8.Slices ![0, 5, 0] S128x1x8
  slices_S128x8x8_o0_6_0_S128x1x8 : S128x8x8.Slices ![0, 6, 0] S128x1x8
  slices_S128x8x8_o0_7_0_S128x1x8 : S128x8x8.Slices ![0, 7, 0] S128x1x8
  concatenates_S128x1x512_S128x1x512_S128x1x512_S128x1x512_S128x1x512_S128x1x512_S128x1x512_S128x1x512_S128x8x512_d1 : Shape.Concatenates [S128x1x512, S128x1x512, S128x1x512, S128x1x512, S128x1x512, S128x1x512, S128x1x512, S128x1x512] S128x8x512 1
  shapeCasts_S128x8x512_S128x4096 : S128x8x512.ShapeCasts S128x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  dot_S128x512_S512x4096_S128x4096_1_0_0_1_n_n_wf : DotDims.WF S128x512 S512x4096 S128x4096 [1] [0] [0] [1] [] []
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S32768x512.size a
  hwx0_0 : ∀ i : grid0.Coords, EltTy.bits .f32 = 32 ∨ (Rect.block (s := S32768x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S32768x512.size a
  hwx0_1 : ∀ i : grid0.Coords, EltTy.bits .f32 = 32 ∨ (Rect.block (s := S32768x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S32768x512.size a
  hwx0_2 : ∀ i : grid0.Coords, EltTy.bits .f32 = 32 ∨ (Rect.block (s := S32768x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S512x4096.size a
  hwx0_4 : ∀ i : grid0.Coords, EltTy.bits .bf16 = 32 ∨ (Rect.block (s := S512x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S512x4096.size a
  hwx0_5 : ∀ i : grid0.Coords, EltTy.bits .bf16 = 32 ∨ (Rect.block (s := S512x4096) S512x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x512.size a ≤ S4096x512.size a
  hwx0_6 : ∀ i : grid0.Coords, EltTy.bits .bf16 = 32 ∨ (Rect.block (s := S4096x512) S4096x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S32768x512.size a
  hwx0_8 : ∀ i : grid0.Coords, EltTy.bits .f32 = 32 ∨ (Rect.block (s := S32768x512) S128x512.size (cc0_transform_8 i) (hinb0_8 i)).WholeWords (EltTy.packing .f32)

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S4096x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x4096 : Shape := ⟨2, ![512, 4096]⟩
abbrev S4096x512 : Shape := ⟨2, ![4096, 512]⟩
abbrev S512 : Shape := ⟨1, ![512]⟩
abbrev S32768x4096 : Shape := ⟨2, ![32768, 4096]⟩
abbrev S32768x8x512 : Shape := ⟨3, ![32768, 8, 512]⟩
abbrev S32768x8x8 : Shape := ⟨3, ![32768, 8, 8]⟩
abbrev S_ : Shape := ⟨0, ![]⟩
abbrev S32768x8 : Shape := ⟨2, ![32768, 8]⟩
abbrev S32768x8x1 : Shape := ⟨3, ![32768, 8, 1]⟩
abbrev S1x512 : Shape := ⟨2, ![1, 512]⟩

abbrev nBuf : Space → Nat
  | .hbm => 35
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S4096x512, .f32⟩
  | .hbm, ⟨7, _⟩ => ⟨S512, .f32⟩
  | .hbm, ⟨8, _⟩ => ⟨S32768x4096, .f32⟩
  | .hbm, ⟨9, _⟩ => ⟨S32768x8x512, .f32⟩
  | .hbm, ⟨10, _⟩ => ⟨S32768x4096, .f32⟩
  | .hbm, ⟨11, _⟩ => ⟨S32768x8x512, .f32⟩
  | .hbm, ⟨12, _⟩ => ⟨S32768x4096, .f32⟩
  | .hbm, ⟨13, _⟩ => ⟨S32768x8x512, .f32⟩
  | .hbm, ⟨14, _⟩ => ⟨S32768x8x8, .f32⟩
  | .hbm, ⟨15, _⟩ => ⟨S_, .f32⟩
  | .hbm, ⟨16, _⟩ => ⟨S32768x8, .f32⟩
  | .hbm, ⟨17, _⟩ => ⟨S_, .f32⟩
  | .hbm, ⟨18, _⟩ => ⟨S32768x8, .f32⟩
  | .hbm, ⟨19, _⟩ => ⟨S32768x8, .f32⟩
  | .hbm, ⟨20, _⟩ => ⟨S32768x8x1, .f32⟩
  | .hbm, ⟨21, _⟩ => ⟨S32768x8x8, .f32⟩
  | .hbm, ⟨22, _⟩ => ⟨S32768x8x8, .f32⟩
  | .hbm, ⟨23, _⟩ => ⟨S32768x8x8, .f32⟩
  | .hbm, ⟨24, _⟩ => ⟨S_, .f32⟩
  | .hbm, ⟨25, _⟩ => ⟨S32768x8, .f32⟩
  | .hbm, ⟨26, _⟩ => ⟨S32768x8x1, .f32⟩
  | .hbm, ⟨27, _⟩ => ⟨S32768x8x8, .f32⟩
  | .hbm, ⟨28, _⟩ => ⟨S32768x8x8, .f32⟩
  | .hbm, ⟨29, _⟩ => ⟨S32768x8x512, .f32⟩
  | .hbm, ⟨30, _⟩ => ⟨S32768x4096, .f32⟩
  | .hbm, ⟨31, _⟩ => ⟨S32768x512, .f32⟩
  | .hbm, ⟨32, _⟩ => ⟨S1x512, .f32⟩
  | .hbm, ⟨33, _⟩ => ⟨S32768x512, .f32⟩
  | .hbm, ⟨34, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  shapeCasts_S32768x4096_S32768x8x512 : S32768x4096.ShapeCasts S32768x8x512
  reducesTo_S32768x8x8_S32768x8_d2 : S32768x8x8.ReducesTo [2] S32768x8
  h_S_ : 0 < S_.numel
  bcast_S_S32768x8 : S_.BroadcastsInDim S32768x8 (![] : Fin 0 → Fin S32768x8.rank)
  bcast_S32768x8_S32768x8x1_0_1 : S32768x8.BroadcastsInDim S32768x8x1 (![0, 1] : Fin 2 → Fin S32768x8x1.rank)
  bcast_S32768x8x1_S32768x8x8_0_1_2 : S32768x8x1.BroadcastsInDim S32768x8x8 (![0, 1, 2] : Fin 3 → Fin S32768x8x8.rank)
  shapeCasts_S32768x8x512_S32768x4096 : S32768x8x512.ShapeCasts S32768x4096
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x512_S512x4096_S32768x4096_1_0_0_1_n_n_wf : DotDims.WF S32768x512 S512x4096 S32768x4096 [1] [0] [0] [1] [] []
  dot_S32768x8x512_S32768x8x512_S32768x8x8_2_2_1_1_0_0_wf : DotDims.WF S32768x8x512 S32768x8x512 S32768x8x8 [2] [2] [1] [1] [0] [0]
  dot_S32768x8x8_S32768x8x512_S32768x8x512_2_1_1_2_0_0_wf : DotDims.WF S32768x8x8 S32768x8x512 S32768x8x512 [2] [1] [1] [2] [0] [0]
  dot_S32768x4096_S4096x512_S32768x512_1_0_0_1_n_n_wf : DotDims.WF S32768x4096 S4096x512 S32768x512 [1] [0] [0] [1] [] []

variable [Facts₀]

def dot_S32768x512_S512x4096_S32768x4096_1_0_0_1_n_n : DotDims S32768x512 S512x4096 S32768x4096 where
  lhsContracting := [1]
  rhsContracting := [0]
  lhsNonContracting := [0]
  rhsNonContracting := [1]
  lhsBatch := []
  rhsBatch := []
  wf := dot_S32768x512_S512x4096_S32768x4096_1_0_0_1_n_n_wf
def dot_S32768x8x512_S32768x8x512_S32768x8x8_2_2_1_1_0_0 : DotDims S32768x8x512 S32768x8x512 S32768x8x8 where
  lhsContracting := [2]
  rhsContracting := [2]
  lhsNonContracting := [1]
  rhsNonContracting := [1]
  lhsBatch := [0]
  rhsBatch := [0]
  wf := dot_S32768x8x512_S32768x8x512_S32768x8x8_2_2_1_1_0_0_wf
def dot_S32768x8x8_S32768x8x512_S32768x8x512_2_1_1_2_0_0 : DotDims S32768x8x8 S32768x8x512 S32768x8x512 where
  lhsContracting := [2]
  rhsContracting := [1]
  lhsNonContracting := [1]
  rhsNonContracting := [2]
  lhsBatch := [0]
  rhsBatch := [0]
  wf := dot_S32768x8x8_S32768x8x512_S32768x8x512_2_1_1_2_0_0_wf
def dot_S32768x4096_S4096x512_S32768x512_1_0_0_1_n_n : DotDims S32768x4096 S4096x512 S32768x512 where
  lhsContracting := [1]
  rhsContracting := [0]
  lhsNonContracting := [0]
  rhsNonContracting := [1]
  lhsBatch := []
  rhsBatch := []
  wf := dot_S32768x4096_S4096x512_S32768x512_1_0_0_1_n_n_wf

class Facts : Prop extends Facts₀ where

variable [Facts]
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.HeadAttention.lean ====
/-
  Attention across the heads of one token, as a function on the extended reals.

  A token is three rows of 512 numbers (a query row, a key row, a value row). Each row is projected to
  8 heads of 512 lanes by a 512 × 4096 matrix: head `h`, lane `d` is column `h · 512 + d` of the product
  (`proj`). The score of head `h` against head `g` is the inner product of the query's head `h` with the
  key's head `g` (`score`); the weights of head `h` are the softmax of its eight scores (`weight`); the mixed
  head `h` is the weighted sum of the value's heads (`mix`); the 8 × 512 mixed numbers, laid out head-major as
  4096 features, are projected back to 512 by a 4096 × 512 matrix and a bias is added (`outp`). `token` is the
  composition. Every sum is a finite sum of extended reals in the order of its index type; no law of
  arithmetic is used here.
-/
import proofs.«156535_j58875411694307_2_alg».proof.Proof.LibLastAxisSoftmax

noncomputable section

open scoped BigOperators

namespace Cert.HeadAttention

open Idealize.ShloMosaic Idealize.ShloMosaic.LastAxisSoftmax

/-- Column `h · 512 + d` of the 4096 projected features: lane `d` of head `h`. -/
def col (h : Fin 8) (d : Fin 512) : Fin 4096 := ⟨h.val * 512 + d.val, by have := h.isLt; have := d.isLt; omega⟩

/-- The head of a feature column. -/
def headOf (c : Fin 4096) : Fin 8 := ⟨c.val / 512, by have := c.isLt; omega⟩

/-- The lane of a feature column inside its head. -/
def laneOf (c : Fin 4096) : Fin 512 := ⟨c.val % 512, Nat.mod_lt _ (by decide)⟩

theorem col_head_lane (c : Fin 4096) : col (headOf c) (laneOf c) = c :=
  Fin.ext (by show c.val / 512 * 512 + c.val % 512 = c.val; omega)

theorem headOf_col (h : Fin 8) (d : Fin 512) : headOf (col h d) = h :=
  Fin.ext (by show (h.val * 512 + d.val) / 512 = h.val; have := d.isLt; omega)

theorem laneOf_col (h : Fin 8) (d : Fin 512) : laneOf (col h d) = d :=
  Fin.ext (by show (h.val * 512 + d.val) % 512 = d.val; have := d.isLt; omega)

/-- A row projected by a 512 × 4096 matrix, read at head `h`, lane `d`. -/
def proj (x : Fin 512 → EReal) (W : Fin 512 → Fin 4096 → EReal) (h : Fin 8) (d : Fin 512) : EReal :=
  ∑ k : Fin 512, x k * W k (col h d)

/-- The inner product of the query's head `h` with the key's head `g`. -/
def score (q k : Fin 8 → Fin 512 → EReal) (h g : Fin 8) : EReal := ∑ d : Fin 512, q h d * k g d

/-- The softmax of head `h`'s eight scores, at `g`. -/
def weight (q k : Fin 8 → Fin 512 → EReal) (h g : Fin 8) : EReal := softmaxAt (fun g' : Fin 8 => score q k h g') g

/-- The value's heads mixed with head `h`'s weights, at lane `d`. -/
def mix (a : Fin 8 → Fin 8 → EReal) (v : Fin 8 → Fin 512 → EReal) (h : Fin 8) (d : Fin 512) : EReal :=
  ∑ g : Fin 8, a h g * v g d

/-- The 8 × 512 mixed numbers, head-major, projected by a 4096 × 512 matrix, plus the bias, at column `j`. -/
def outp (o : Fin 8 → Fin 512 → EReal) (Wo : Fin 4096 → Fin 512 → EReal) (b : Fin 512 → EReal) (j : Fin 512) : EReal :=
  (∑ c : Fin 4096, o (headOf c) (laneOf c) * Wo c j) + b j

/-- One token's output row at column `j`. -/
def token (xq xk xv : Fin 512 → EReal) (Wq Wk Wv : Fin 512 → Fin 4096 → EReal) (Wo : Fin 4096 → Fin 512 → EReal)
    (b : Fin 512 → EReal) (j : Fin 512) : EReal :=
  outp (mix (weight (proj xq Wq) (proj xk Wk)) (proj xv Wv)) Wo b j

end Cert.HeadAttention

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«156535_j58875411694307_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.KProjections.lean ====
/-
  The kernel's three input projections and its output projection, read at an index.

  A block of 128 rows times a 512 × 4096 matrix, regrouped as [128, 8, 512]: entry (p, h, d) is the sum over k
  of row p's entry k times the matrix's entry (k, h · 512 + d). The output projection: entry (p, j) is the sum
  over the 4096 features c of the feature block's (p, c) times the matrix's (c, j), plus the bias row's entry j.
-/
import proofs.«156535_j58875411694307_2_alg».proof.Proof.Gen.KernelIdeal.Skeleton
import proofs.«156535_j58875411694307_2_alg».proof.Proof.HeadAttention
import proofs.«156535_j58875411694307_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx
open Idealize.ShloMosaic.LastAxisSoftmax Cert.HeadAttention

/-- The input projections' product is rows times columns. -/
theorem plainDot_in : Cert.LibHostRead.PlainDot dot_S128x512_S512x4096_S128x4096_1_0_0_1_n_n :=
  Cert.LibPlainDot.plainDot_plain 128 512 4096

/-- The output projection's product is rows times columns. -/
theorem plainDot_out : Cert.LibHostRead.PlainDot dot_S128x4096_S4096x512_S128x512_1_0_0_1_n_n :=
  Cert.LibPlainDot.plainDot_plain 128 4096 512

/-- A [128, 512] block times a [512, 4096] matrix into the zero accumulator, regrouped as [128, 8, 512], at (p, h, d):
    the sum over k of the block's (p, k) times the matrix's (k, h · 512 + d). -/
theorem projHead_apply (x : Vec Ideal S128x512 .f32) (W : Vec Ideal S512x4096 .bf16)
    (hlt : FTy.bits .bf16 < FTy.bits .f32) (hsc : S512x4096.ShapeCasts S512x4096)
    (hc : S128x4096.ShapeCasts S128x8x512) (p : Fin 128) (h : Fin 8) (d : Fin 512) :
    shapeCast S128x8x512 (matmul (F := Ideal) dot_S128x512_S512x4096_S128x4096_1_0_0_1_n_n none
      (truncf .bf16 x hlt : FVec Ideal S128x512 .bf16) (shapeCast S512x4096 W hsc : FVec Ideal S512x4096 .bf16)
      (constant S128x4096 .f32 0x00000000#32)) hc (ix3 p h d)
      = proj (fun k => x (ix2 p k)) (fun k c => W (ix2 k c)) h d := by
  -- the regrouping keeps the row-major position: column h · 512 + d of row p
  refine (shapeCast_apply _ hc (ix3 p h d) (ix2 p (col h d)) (by
    rw [Shape.rowMajor_val_two, Shape.rowMajor_val_three]
    show p.val * 4096 + (h.val * 512 + d.val) = (p.val * 8 + h.val) * 512 + d.val
    omega)).trans ?_
  refine (Cert.LibPlainDot.vmatmul_apply _ plainDot_in _ _ p (col h d)).trans ?_
  -- the format change and the cast of a shape to itself are the identity
  rw [shapeCast_self]
  rfl

/-- The query block's projection at (p, h, d). -/
theorem pay2_apply (v0 : Vec Ideal S128x512 .f32) (v6 : Vec Ideal S512x4096 .bf16) (p : Fin 128) (h : Fin 8) (d : Fin 512) :
    k0_pay2 v0 v6 (ix3 p h d) = proj (fun k => v0 (ix2 p k)) (fun k c => v6 (ix2 k c)) h d :=
  projHead_apply v0 v6 _ _ _ p h d

/-- The key block's projection at (p, h, d). -/
theorem pay3_apply (v2 : Vec Ideal S128x512 .f32) (v9 : Vec Ideal S512x4096 .bf16) (p : Fin 128) (h : Fin 8) (d : Fin 512) :
    k0_pay3 v2 v9 (ix3 p h d) = proj (fun k => v2 (ix2 p k)) (fun k c => v9 (ix2 k c)) h d :=
  projHead_apply v2 v9 _ _ _ p h d

/-- The value block's projection at (p, h, d). -/
theorem pay4_apply (v4 : Vec Ideal S128x512 .f32) (v12 : Vec Ideal S512x4096 .bf16) (p : Fin 128) (h : Fin 8) (d : Fin 512) :
    k0_pay4 v4 v12 (ix3 p h d) = proj (fun k => v4 (ix2 p k)) (fun k c => v12 (ix2 k c)) h d :=
  projHead_apply v4 v12 _ _ _ p h d

/-- The output projection plus the bias at (p, j). -/
theorem pay1_apply (v144 : FVec Ideal S128x4096 .bf16) (v145 : Vec Ideal S4096x512 .bf16) (v148 : Vec Ideal S1x512 .f32)
    (p : Fin 128) (j : Fin 512) :
    k0_pay1 v144 v145 v148 (ix2 p j)
      = (∑ c : Fin 4096, v144 (ix2 p c) * v145 (ix2 c j)) + v148 (ix2 (0 : Fin 1) j) := by
  show matmul (F := Ideal) dot_S128x4096_S4096x512_S128x512_1_0_0_1_n_n none v144
      (shapeCast S4096x512 v145 _ : FVec Ideal S4096x512 .bf16) (constant S128x512 .f32 0x00000000#32) (ix2 p j)
    + broadcastTo S128x512 (shapeCast S1x512 v148 _ : FVec Ideal S1x512 .f32) _ (ix2 p j) = _
  refine congrArg₂ (· + ·) ?_ ?_
  · refine (Cert.LibPlainDot.vmatmul_apply _ plainDot_out _ _ p j).trans ?_
    rw [shapeCast_self]
  · refine (broadcastTo_1b_ab_apply _ _ p j).trans ?_
    rw [shapeCast_self]

end Cert.KernelIdeal.Row

end
-- ==== Proof.KScores.lean ====
/-
  The kernel's score rows, read at an index.

  Head h of the projected queries, kept as a unit axis and repeated along the 8 key heads, times the projected keys,
  summed over the 512 lanes: entry (p, g) is the inner product of query head h with key head g in row p. Heads
  0, 1, 2 are summed here; head 3 is left as the product array.
-/
import proofs.«156535_j58875411694307_2_alg».proof.Proof.Gen.KernelIdeal.Skeleton
import proofs.«156535_j58875411694307_2_alg».proof.Proof.HeadAttention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx
open Idealize.ShloMosaic.LastAxisSoftmax Cert.HeadAttention

/-- Head h of a [128, 8, 512] array, kept as a unit axis, flattened to [128, 512], given the unit axis back and
    repeated along the 8 middle coordinates, reads at (p, g, d) the array's entry (p, h, d). -/
theorem sliceHead_apply {α : Type} (Q : S128x8x512.Idx → α) (h : Fin 8)
    (hs : S128x8x512.Slices ![0, h.val, 0] S128x1x512)
    (hc1 : S128x1x512.ShapeCasts S128x512) (hc2 : S128x512.ShapeCasts S128x1x512)
    (hb : S128x1x512.Broadcasts S128x8x512) (p : Fin 128) (g : Fin 8) (d : Fin 512) :
    broadcastTo S128x8x512 (shapeCast S128x1x512 (shapeCast S128x512
      (extractStridedSlice S128x1x512 ![0, h.val, 0] Q hs) hc1) hc2) hb (ix3 p g d) = Q (ix3 p h d) := by
  -- the repetition along the middle axis reads the unit coordinate
  refine (broadcastTo_apply _ hb (ix3 p g d) (ix3 p (0 : Fin 1) d) (fun a => by
    match a with
    | ⟨0, _⟩ => rfl
    | ⟨1, _⟩ => rfl
    | ⟨2, _⟩ => rfl)).trans ?_
  -- the two regroupings keep the row-major position p · 512 + d
  refine (shapeCast_apply _ hc2 (ix3 p (0 : Fin 1) d) (ix2 p d) (by
    rw [Shape.rowMajor_val_two, Shape.rowMajor_val_three]
    show p.val * 512 + d.val = (p.val * 1 + 0) * 512 + d.val
    omega)).trans ?_
  refine (shapeCast_apply _ hc1 (ix2 p d) (ix3 p (0 : Fin 1) d) (by
    rw [Shape.rowMajor_val_two, Shape.rowMajor_val_three]
    show (p.val * 1 + 0) * 512 + d.val = p.val * 512 + d.val
    omega)).trans ?_
  -- the slice shifts the middle coordinate by h
  exact extractStridedSlice_apply _ Q hs (ix3 p (0 : Fin 1) d) (ix3 p h d) (fun a => by
    match a with
    | ⟨0, _⟩ => show p.val = 0 + p.val; omega
    | ⟨1, _⟩ => show h.val = h.val + 0; omega
    | ⟨2, _⟩ => show d.val = 0 + d.val; omega)

/-- The score row of head h at (p, g): the sum over the 512 lanes of query head h times key head g. -/
theorem scoreRow_apply (Q K : FVec Ideal S128x8x512 .f32) (h : Fin 8)
    (hs : S128x8x512.Slices ![0, h.val, 0] S128x1x512)
    (hc1 : S128x1x512.ShapeCasts S128x512) (hc2 : S128x512.ShapeCasts S128x1x512)
    (hb : S128x1x512.Broadcasts S128x8x512) (hr : S128x8x512.Reduces [2] S128x8)
    (hφ : FKind.Formats .f32) (hacc : (0x00000000#32 : BitVec 32) = FKind.add.neutral .f32 hφ)
    (p : Fin 128) (g : Fin 8) :
    multiReduction .add [2] S128x8 (mulf (broadcastTo S128x8x512 (shapeCast S128x1x512 (shapeCast S128x512
      (extractStridedSlice S128x1x512 ![0, h.val, 0] Q hs) hc1) hc2) hb) K) 0x00000000#32 hr hφ hacc (ix2 p g)
      = ∑ d : Fin 512, Q (ix3 p h d) * K (ix3 p g d) := by
  refine (Ideal.multiReduction_add_single _ _ hr hφ hacc (ix2 p g)).trans ?_
  refine Finset.sum_congr rfl fun d _ => ?_
  rw [lift3 hr p g d]
  show broadcastTo S128x8x512 _ hb (ix3 p g d) * K (ix3 p g d) = _
  rw [sliceHead_apply Q h hs hc1 hc2 hb p g d]

/-- Head 0's scores at (p, g). -/
theorem pay5_apply (v0 v2 : Vec Ideal S128x512 .f32) (v6 v9 : Vec Ideal S512x4096 .bf16) (p : Fin 128) (g : Fin 8) :
    k0_pay5 v0 v2 v6 v9 (ix2 p g)
      = ∑ d : Fin 512, k0_pay2 v0 v6 (ix3 p (0 : Fin 8) d) * k0_pay3 v2 v9 (ix3 p g d) :=
  scoreRow_apply (k0_pay2 v0 v6) (k0_pay3 v2 v9) (0 : Fin 8) _ _ _ _ _ (.inl rfl) rfl p g

/-- Head 1's scores at (p, g). -/
theorem pay6_apply (v0 v2 : Vec Ideal S128x512 .f32) (v6 v9 : Vec Ideal S512x4096 .bf16) (p : Fin 128) (g : Fin 8) :
    k0_pay6 v0 v2 v6 v9 (ix2 p g)
      = ∑ d : Fin 512, k0_pay2 v0 v6 (ix3 p (1 : Fin 8) d) * k0_pay3 v2 v9 (ix3 p g d) :=
  scoreRow_apply (k0_pay2 v0 v6) (k0_pay3 v2 v9) (1 : Fin 8) _ _ _ _ _ (.inl rfl) rfl p g

/-- Head 2's scores at (p, g). -/
theorem pay7_apply (v0 v2 : Vec Ideal S128x512 .f32) (v6 v9 : Vec Ideal S512x4096 .bf16) (p : Fin 128) (g : Fin 8) :
    k0_pay7 v0 v2 v6 v9 (ix2 p g)
      = ∑ d : Fin 512, k0_pay2 v0 v6 (ix3 p (2 : Fin 8) d) * k0_pay3 v2 v9 (ix3 p g d) :=
  scoreRow_apply (k0_pay2 v0 v6) (k0_pay3 v2 v9) (2 : Fin 8) _ _ _ _ _ (.inl rfl) rfl p g

/-- Head 3's products, not yet summed, at (p, g, d). -/
theorem pay8_apply (v0 v2 : Vec Ideal S128x512 .f32) (v6 v9 : Vec Ideal S512x4096 .bf16) (p : Fin 128) (g : Fin 8) (d : Fin 512) :
    k0_pay8 v0 v2 v6 v9 (ix3 p g d) = k0_pay2 v0 v6 (ix3 p (3 : Fin 8) d) * k0_pay3 v2 v9 (ix3 p g d) := by
  show broadcastTo S128x8x512 _ _ (ix3 p g d) * k0_pay3 v2 v9 (ix3 p g d) = _
  exact congrArg (· * k0_pay3 v2 v9 (ix3 p g d)) (sliceHead_apply (k0_pay2 v0 v6) (3 : Fin 8) _ _ _ _ p g d)

end Cert.KernelIdeal.Row

end
-- ==== Proof.LibVecSoftmax3Joined.lean ====
/-
  Softmax along the last axis of a rank-3 array as a vector program writes it when the lane maximum is joined once
  more with minus infinity, read at an index, on the extended reals.

  On an array [a, b, c] the program takes the lane maximum to [a, b] from the word of minus infinity, joins it with
  the splat of minus infinity (which changes nothing), keeps it as a unit last axis [a, b, 1] and broadcasts it back
  to [a, b, c], subtracts, exponentiates, sums the lanes from zero, spreads the sum back the same way and divides
  (`vecSoftmax3J`). Read at (p, g, l) it is `softmaxAt` of the row (p, g, ·) at `l` (`vecSoftmax3J_apply`). The only
  law used is max b (fold max b f) = fold max b f.
-/
import proofs.«156535_j58875411694307_2_alg».proof.Proof.LibLastAxisSoftmax

noncomputable section

open scoped BigOperators

namespace Idealize.ShloMosaic.LastAxisSoftmax

open Idealize.ShloMosaic Idealize.ShloMosaic.ValueIdx

section VecJ
variable {n0 n1 n2 : Nat} {F : FTy → Type} [FloatOps F]

/-- The lane maximum of a rank-3 array from minus infinity, joined once more with the splat of minus infinity. -/
def joinedMax3 (X : FVec F ⟨3, ![n0, n1, n2]⟩ .f32)
    (hr : (⟨3, ![n0, n1, n2]⟩ : Shape).Reduces [2] ⟨2, ![n0, n1]⟩)
    (hφ : FKind.Formats .f32) (hmax : (0xFF800000#32 : BitVec 32) = FKind.maximumf.neutral .f32 hφ) :
    FVec F ⟨2, ![n0, n1]⟩ .f32 :=
  maximumf (broadcast ⟨2, ![n0, n1]⟩ (Scalar.ofBits .f32 0xFF800000#32))
    (multiReduction .maximumf [2] ⟨2, ![n0, n1]⟩ X 0xFF800000#32 hr hφ hmax)

/-- The vector program with the joined maximum: subtract it, exponentiate, divide by the lane sum. -/
def vecSoftmax3J (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩ (joinedMax3 X hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩ (joinedMax3 X hr hφ hmax) hc) hb)))
        0x00000000#32 hr hφ hadd) hc) hb)

end VecJ

/-- The joined lane maximum at (p, g): the fold of `max` over the row from minus infinity. -/
theorem joinedMax3_apply {n0 n1 n2 : Nat} (X : FVec Ideal ⟨3, ![n0, n1, n2]⟩ .f32)
    (hr : (⟨3, ![n0, n1, n2]⟩ : Shape).Reduces [2] ⟨2, ![n0, n1]⟩)
    (hφ : FKind.Formats .f32) (hmax : (0xFF800000#32 : BitVec 32) = FKind.maximumf.neutral .f32 hφ)
    (p : Fin n0) (g : Fin n1) :
    joinedMax3 (F := Ideal) X hr hφ hmax (ix2 p g)
      = (Finset.univ : Finset (Fin n2)).fold max negInf (fun k : Fin n2 => X (ix3 p g k)) := by
  show max negInf (multiReduction .maximumf [2] ⟨2, ![n0, n1]⟩ X 0xFF800000#32 hr hφ hmax (ix2 p g)) = _
  rw [Ideal.multiReduction_maximumf_single]
  refine (max_eq_right ((Finset.le_fold_max _).2 (Or.inl le_rfl))).trans ?_
  exact congrArg (fun f : Fin n2 → EReal => (Finset.univ : Finset (Fin n2)).fold max negInf f)
    (funext fun k => congrArg X (lift3 hr p g k))

/-- Read at (p, g, l), the vector program with the joined maximum is the softmax of row (p, g, ·) at `l`. -/
theorem vecSoftmax3J_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3J (F := Ideal) X hr hc hb hφ hmax hadd (ix3 p g l) = softmaxAt (fun k : Fin n2 => X (ix3 p g k)) l := by
  -- the exponentials at (p, g, k)
  have hE : ∀ k : Fin n2,
      exp (subf X (broadcastTo ⟨3, ![n0, n1, n2]⟩ (shapeCast ⟨3, ![n0, n1, 1]⟩
        (joinedMax3 (F := Ideal) X hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (joinedMax3 (F := Ideal) X hr hφ hmax) hc) hb (ix3 p g k)) = _
    rw [keepdims3_apply, joinedMax3_apply]
  unfold vecSoftmax3J softmaxAt
  show Ideal.div _ _ = _
  rw [hE l, keepdims3_apply, Ideal.multiReduction_add_single]
  refine congrArg (Ideal.div _) ?_
  exact Finset.sum_congr rfl fun k _ => by rw [lift3 hr p g k, hE k]

end Idealize.ShloMosaic.LastAxisSoftmax

end
-- ==== Proof.LibConcat8.lean ====
/-
  Eight unit-thick pieces joined along the middle axis, read at an index.

  Eight arrays of shape [a, 1, c] concatenated along axis 1 give an array of shape [a, 8, c]; its entry at (p, h, l)
  is piece h at (p, 0, l).
-/
import Idealize.ShloMosaic.Lib.Pipeline.Value
import Idealize.ShloMosaic.Lib.ValueIdx

namespace Cert.LibConcat8

open Idealize.ShloMosaic Idealize.ShloMosaic.ValueIdx

/-- Eight pieces [a, 1, c] joined along the middle axis to [a, 8, c]: at (p, h, l) the result is piece h at
    (p, 0, l). -/
theorem concat8_mid_apply {α : Type} {a c : ℕ} (f : Fin 8 → ((⟨3, ![a, 1, c]⟩ : Shape).Idx → α))
    (hc : Shape.Concatenates ([(⟨⟨3, ![a, 1, c]⟩, f 0⟩ : (s : Shape) × (s.Idx → α)), ⟨⟨3, ![a, 1, c]⟩, f 1⟩,
      ⟨⟨3, ![a, 1, c]⟩, f 2⟩, ⟨⟨3, ![a, 1, c]⟩, f 3⟩, ⟨⟨3, ![a, 1, c]⟩, f 4⟩, ⟨⟨3, ![a, 1, c]⟩, f 5⟩,
      ⟨⟨3, ![a, 1, c]⟩, f 6⟩, ⟨⟨3, ![a, 1, c]⟩, f 7⟩].map (·.1)) ⟨3, ![a, 8, c]⟩ 1)
    (p : Fin a) (h : Fin 8) (l : Fin c) :
    concatenate ⟨3, ![a, 8, c]⟩ 1 [⟨⟨3, ![a, 1, c]⟩, f 0⟩, ⟨⟨3, ![a, 1, c]⟩, f 1⟩, ⟨⟨3, ![a, 1, c]⟩, f 2⟩,
      ⟨⟨3, ![a, 1, c]⟩, f 3⟩, ⟨⟨3, ![a, 1, c]⟩, f 4⟩, ⟨⟨3, ![a, 1, c]⟩, f 5⟩, ⟨⟨3, ![a, 1, c]⟩, f 6⟩,
      ⟨⟨3, ![a, 1, c]⟩, f 7⟩] hc (ix3 p h l) = f h (ix3 p (0 : Fin 1) l) := by
  refine concatenate_apply_piece (1 : Fin 3) _ hc (ix3 p h l) h.val (by simpa using h.isLt) ⟨3, ![a, 1, c]⟩ (f h)
    ?_ rfl h.val ?_ (ix3 p (0 : Fin 1) l) ?_ ?_
  · match h with
    | ⟨0, _⟩ => rfl | ⟨1, _⟩ => rfl | ⟨2, _⟩ => rfl | ⟨3, _⟩ => rfl
    | ⟨4, _⟩ => rfl | ⟨5, _⟩ => rfl | ⟨6, _⟩ => rfl | ⟨7, _⟩ => rfl
  · match h with
    | ⟨0, _⟩ => rfl | ⟨1, _⟩ => rfl | ⟨2, _⟩ => rfl | ⟨3, _⟩ => rfl
    | ⟨4, _⟩ => rfl | ⟨5, _⟩ => rfl | ⟨6, _⟩ => rfl | ⟨7, _⟩ => rfl
  · intro b hb
    match b with
    | ⟨0, _⟩ => rfl
    | ⟨1, _⟩ => exact absurd rfl hb
    | ⟨2, _⟩ => rfl
  · show h.val + 0 = h.val
    rfl

end Cert.LibConcat8
-- ==== Proof.KWeights.lean ====
/-
  The kernel's attention weights, read at an index.

  The eight score rows (three given, one the lane sum of a given product array, four summed here from the projected
  queries and keys), each given a unit middle axis, are joined along that axis to [128, 8, 8]; the lane maximum from
  minus infinity, joined once more with minus infinity, is subtracted; the exponentials are divided by their lane
  sum. Whatever function S the eight rows are at row p, entry (p, h, g) is the softmax of S h at g.
-/
import proofs.«156535_j58875411694307_2_alg».proof.Proof.Gen.KernelIdeal.Skeleton
import proofs.«156535_j58875411694307_2_alg».proof.Proof.HeadAttention
import proofs.«156535_j58875411694307_2_alg».proof.Proof.LibVecSoftmax3Joined
import proofs.«156535_j58875411694307_2_alg».proof.Proof.LibConcat8
import Idealize.ShloMosaic.Lib.Pipeline.Value
import Idealize.ShloMosaic.Lib.ValueIdx
import Idealize.ShloMosaic.Lib.ValueLayout
import Idealize.ShloMosaic.PureOps.Ideal.Laws

noncomputable section

open scoped BigOperators
namespace Cert.KernelIdeal.Row

open Cert.KernelIdeal Cert.KernelIdeal.Gen Idealize.ShloMosaic Idealize.ShloMosaic.ValueIdx
open Idealize.ShloMosaic.LastAxisSoftmax Cert.HeadAttention

namespace Weights

/-- An array [a, c] given a unit middle axis reads at (p, 0, g) what it held at (p, g). -/
theorem addMid_apply {α : Type} {n0 n2 : Nat} (v : (⟨2, ![n0, n2]⟩ : Shape).Idx → α)
    (hc : (⟨2, ![n0, n2]⟩ : Shape).ShapeCasts ⟨3, ![n0, 1, n2]⟩) (p : Fin n0) (g : Fin n2) :
    shapeCast ⟨3, ![n0, 1, n2]⟩ v hc (ix3 p (0 : Fin 1) g) = v (ix2 p g) :=
  shapeCast_apply v hc _ (ix2 p g) (by
    rw [Shape.rowMajor_val_two, Shape.rowMajor_val_three]
    show p.val * n2 + g.val = (p.val * 1 + 0) * n2 + g.val
    rw [Nat.mul_one, Nat.add_zero])

/-- The lane sum of a [128, 8, 512] array at (p, g): the sum over the 512 lanes. -/
theorem laneSum_apply (v : FVec Ideal S128x8x512 .f32) (p : Fin 128) (g : Fin 8) :
    multiReduction .add [2] S128x8 v 0x00000000#32 reduces_S128x8x512_S128x8 (.inl rfl) rfl (ix2 p g)
      = ∑ d : Fin 512, v (ix3 p g d) := by
  refine (Ideal.multiReduction_add_single v _ reduces_S128x8x512_S128x8 _ _ (ix2 p g)).trans ?_
  exact Finset.sum_congr rfl fun d _ => congrArg v (lift3 reduces_S128x8x512_S128x8 p g d)

/-- Head o of the projected queries, sliced out, cast to [128, 512] and back, and broadcast over the eight key
    heads, reads at (p, g, d) the query of head o at (p, d). -/
theorem headBroadcast_apply (v15 : FVec Ideal S128x8x512 .f32) (o : Nat) (ho : o < 8)
    (hs : S128x8x512.Slices ![0, o, 0] S128x1x512) (p : Fin 128) (g : Fin 8) (d : Fin 512) :
    broadcastTo S128x8x512 (shapeCast S128x1x512 (shapeCast S128x512
        (extractStridedSlice S128x1x512 ![0, o, 0] v15 hs) shapeCasts_S128x1x512_S128x512)
        shapeCasts_S128x512_S128x1x512) broadcasts_S128x1x512_S128x8x512 (ix3 p g d)
      = v15 (ix3 p (⟨o, ho⟩ : Fin 8) d) := by
  rw [shapeCast_shapeCast]
  refine (broadcastTo_apply _ broadcasts_S128x1x512_S128x8x512 (ix3 p g d) (ix3 p (0 : Fin 1) d) (fun a => ?_)).trans ?_
  · match a with
    | ⟨0, _⟩ =>
      show p.val = if (128 : Nat) = 1 then 0 else p.val
      rw [if_neg (by decide)]
    | ⟨1, _⟩ =>
      show 0 = if (1 : Nat) = 1 then 0 else g.val
      rw [if_pos rfl]
    | ⟨2, _⟩ =>
      show d.val = if (512 : Nat) = 1 then 0 else d.val
      rw [if_neg (by decide)]
  · exact extractStridedSlice_apply _ v15 hs _ _ (fun a => by
      match a with
      | ⟨0, _⟩ => show p.val = 0 + p.val; omega
      | ⟨1, _⟩ => show o = o + 0; omega
      | ⟨2, _⟩ => show d.val = 0 + d.val; omega)

/-- The score row of head o: the lane sum of the broadcast query of head o times the keys. -/
def headRow (v15 v16 : FVec Ideal S128x8x512 .f32) (o : Nat) (hs : S128x8x512.Slices ![0, o, 0] S128x1x512) :
    FVec Ideal S128x8 .f32 :=
  multiReduction .add [2] S128x8
    (mulf (broadcastTo S128x8x512 (shapeCast S128x1x512 (shapeCast S128x512
      (extractStridedSlice S128x1x512 ![0, o, 0] v15 hs) shapeCasts_S128x1x512_S128x512)
      shapeCasts_S128x512_S128x1x512) broadcasts_S128x1x512_S128x8x512) v16)
    0x00000000#32 reduces_S128x8x512_S128x8 (.inl rfl) rfl

/-- The score row of head o at (p, g): the sum over the lanes of query times key. -/
theorem headRow_apply (v15 v16 : FVec Ideal S128x8x512 .f32) (o : Nat) (ho : o < 8)
    (hs : S128x8x512.Slices ![0, o, 0] S128x1x512) (p : Fin 128) (g : Fin 8) :
    headRow v15 v16 o hs (ix2 p g) = ∑ d : Fin 512, v15 (ix3 p (⟨o, ho⟩ : Fin 8) d) * v16 (ix3 p g d) := by
  unfold headRow
  rw [laneSum_apply]
  refine Finset.sum_congr rfl fun d _ => ?_
  show _ * v16 (ix3 p g d) = _
  rw [headBroadcast_apply v15 o ho hs p g d]

/-- The eight score rows, each with a unit middle axis. -/
def piece (v15 v16 : FVec Ideal S128x8x512 .f32) (v23 v29 v35 : FVec Ideal S128x8 .f32)
    (v40 : FVec Ideal S128x8x512 .f32) : Fin 8 → FVec Ideal S128x1x8 .f32 :=
  ![shapeCast S128x1x8 v23 shapeCasts_S128x8_S128x1x8,
    shapeCast S128x1x8 v29 shapeCasts_S128x8_S128x1x8,
    shapeCast S128x1x8 v35 shapeCasts_S128x8_S128x1x8,
    shapeCast S128x1x8 (multiReduction .add [2] S128x8 v40 0x00000000#32 reduces_S128x8x512_S128x8 (.inl rfl) rfl)
      shapeCasts_S128x8_S128x1x8,
    shapeCast S128x1x8 (headRow v15 v16 4 slices_S128x8x512_o0_4_0_S128x1x512) shapeCasts_S128x8_S128x1x8,
    shapeCast S128x1x8 (headRow v15 v16 5 slices_S128x8x512_o0_5_0_S128x1x512) shapeCasts_S128x8_S128x1x8,
    shapeCast S128x1x8 (headRow v15 v16 6 slices_S128x8x512_o0_6_0_S128x1x512) shapeCasts_S128x8_S128x1x8,
    shapeCast S128x1x8 (headRow v15 v16 7 slices_S128x8x512_o0_7_0_S128x1x512) shapeCasts_S128x8_S128x1x8]

/-- The eight rows joined along the middle axis. -/
def joined (v15 v16 : FVec Ideal S128x8x512 .f32) (v23 v29 v35 : FVec Ideal S128x8 .f32)
    (v40 : FVec Ideal S128x8x512 .f32) : FVec Ideal S128x8x8 .f32 :=
  concatenate S128x8x8 1
    [⟨S128x1x8, piece v15 v16 v23 v29 v35 v40 0⟩, ⟨S128x1x8, piece v15 v16 v23 v29 v35 v40 1⟩,
     ⟨S128x1x8, piece v15 v16 v23 v29 v35 v40 2⟩, ⟨S128x1x8, piece v15 v16 v23 v29 v35 v40 3⟩,
     ⟨S128x1x8, piece v15 v16 v23 v29 v35 v40 4⟩, ⟨S128x1x8, piece v15 v16 v23 v29 v35 v40 5⟩,
     ⟨S128x1x8, piece v15 v16 v23 v29 v35 v40 6⟩, ⟨S128x1x8, piece v15 v16 v23 v29 v35 v40 7⟩]
    concatenates_S128x1x8_S128x1x8_S128x1x8_S128x1x8_S128x1x8_S128x1x8_S128x1x8_S128x1x8_S128x8x8_d1

/-- The weights are the softmax program with the joined maximum, run on the joined rows. -/
theorem pay9_eq (v15 v16 : FVec Ideal S128x8x512 .f32) (v23 v29 v35 : FVec Ideal S128x8 .f32)
    (v40 : FVec Ideal S128x8x512 .f32) :
    k0_pay9 v15 v16 v23 v29 v35 v40
      = vecSoftmax3J (F := Ideal) (joined v15 v16 v23 v29 v35 v40) reduces_S128x8x8_S128x8
          shapeCasts_S128x8_S128x8x1 broadcasts_S128x8x1_S128x8x8 (.inl rfl) rfl rfl := rfl

/-- The joined rows at (p, h, k): row h at (p, k). -/
theorem joined_apply (v15 v16 : FVec Ideal S128x8x512 .f32) (v23 v29 v35 : FVec Ideal S128x8 .f32)
    (v40 : FVec Ideal S128x8x512 .f32) (p : Fin 128) (h k : Fin 8) :
    joined v15 v16 v23 v29 v35 v40 (ix3 p h k) = piece v15 v16 v23 v29 v35 v40 h (ix3 p (0 : Fin 1) k) :=
  Cert.LibConcat8.concat8_mid_apply (piece v15 v16 v23 v29 v35 v40) _ p h k

end Weights

open Weights in
/-- The attention weights at (p, h, g): the softmax of head h's scores. -/
theorem pay9_apply (v15 v16 : FVec Ideal S128x8x512 .f32) (v23 v29 v35 : FVec Ideal S128x8 .f32)
    (v40 : FVec Ideal S128x8x512 .f32) (S : Fin 8 → Fin 8 → EReal) (p : Fin 128)
    (h0 : ∀ g : Fin 8, v23 (ix2 p g) = S 0 g) (h1 : ∀ g : Fin 8, v29 (ix2 p g) = S 1 g)
    (h2 : ∀ g : Fin 8, v35 (ix2 p g) = S 2 g)
    (h3 : ∀ g : Fin 8, ∑ d : Fin 512, v40 (ix3 p g d) = S 3 g)
    (h4 : ∀ h : Fin 8, 4 ≤ h.val → ∀ g : Fin 8, ∑ d : Fin 512, v15 (ix3 p h d) * v16 (ix3 p g d) = S h g)
    (h g : Fin 8) :
    k0_pay9 v15 v16 v23 v29 v35 v40 (ix3 p h g) = softmaxAt (S h) g := by
  -- row h of the joined array is S h
  have hX : ∀ k : Fin 8, joined v15 v16 v23 v29 v35 v40 (ix3 p h k) = S h k := by
    intro k
    rw [joined_apply]
    match h with
    | ⟨0, _⟩ => exact (addMid_apply v23 _ p k).trans (h0 k)
    | ⟨1, _⟩ => exact (addMid_apply v29 _ p k).trans (h1 k)
    | ⟨2, _⟩ => exact (addMid_apply v35 _ p k).trans (h2 k)
    | ⟨3, _⟩ => exact (addMid_apply _ _ p k).trans ((laneSum_apply v40 p k).trans (h3 k))
    | ⟨4, h'⟩ =>
      exact (addMid_apply _ _ p k).trans ((headRow_apply v15 v16 4 h' _ p k).trans (h4 ⟨4, h'⟩ (Nat.le_refl 4) k))
    | ⟨5, h'⟩ =>
      exact (addMid_apply _ _ p k).trans ((headRow_apply v15 v16 5 h' _ p k).trans (h4 ⟨5, h'⟩ (show (4 : Nat) ≤ 5 by decide) k))
    | ⟨6, h'⟩ =>
      exact (addMid_apply _ _ p k).trans ((headRow_apply v15 v16 6 h' _ p k).trans (h4 ⟨6, h'⟩ (show (4 : Nat) ≤ 6 by decide) k))
    | ⟨7, h'⟩ =>
      exact (addMid_apply _ _ p k).trans ((headRow_apply v15 v16 7 h' _ p k).trans (h4 ⟨7, h'⟩ (show (4 : Nat) ≤ 7 by decide) k))
  refine (congrFun (pay9_eq v15 v16 v23 v29 v35 v40) (ix3 p h g)).trans ?_
  refine (vecSoftmax3J_apply (joined v15 v16 v23 v29 v35 v40) _ _ _ _ _ _ p h g).trans ?_
  exact congrArg (fun f : Fin 8 → EReal => softmaxAt f g) (funext hX)

end Cert.KernelIdeal.Row

end
-- ==== Proof.KMix.lean ====
/-
  The kernel's first mixed head, read at an index.

  Head 0's weights, turned into a column over the 8 value heads and repeated along the 512 lanes, times the projected
  values, summed over the 8 value heads: entry (p, d) is the weighted sum of the value heads' lane d.
-/
import proofs.«156535_j58875411694307_2_alg».proof.Proof.Gen.KernelIdeal.Skeleton
import proofs.«156535_j58875411694307_2_alg».proof.Proof.HeadAttention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx
open Idealize.ShloMosaic.LastAxisSoftmax Cert.HeadAttention

/-- Row h of a [128, 8, 8] array, kept as a unit axis, flattened to [128, 8], given a unit last axis and repeated
    along the 512 lanes, reads at (p, g, d) the array's entry (p, h, g). -/
theorem sliceWeights_apply {α : Type} (A : S128x8x8.Idx → α) (h : Fin 8)
    (hs : S128x8x8.Slices ![0, h.val, 0] S128x1x8)
    (hc1 : S128x1x8.ShapeCasts S128x8) (hc2 : S128x8.ShapeCasts S128x8x1)
    (hb : S128x8x1.Broadcasts S128x8x512) (p : Fin 128) (g : Fin 8) (d : Fin 512) :
    broadcastTo S128x8x512 (shapeCast S128x8x1 (shapeCast S128x8
      (extractStridedSlice S128x1x8 ![0, h.val, 0] A hs) hc1) hc2) hb (ix3 p g d) = A (ix3 p h g) := by
  -- the unit last axis repeated along the lanes reads the flattened array at (p, g)
  refine (keepdims3_apply (n0 := 128) (n1 := 8) (n2 := 512) _ hc2 hb p g d).trans ?_
  -- the regrouping keeps the row-major position p · 8 + g
  refine (shapeCast_apply _ hc1 (ix2 p g) (ix3 p (0 : Fin 1) g) (by
    rw [Shape.rowMajor_val_two, Shape.rowMajor_val_three]
    show (p.val * 1 + 0) * 8 + g.val = p.val * 8 + g.val
    omega)).trans ?_
  -- the slice shifts the middle coordinate by h
  exact extractStridedSlice_apply _ A hs (ix3 p (0 : Fin 1) g) (ix3 p h g) (fun a => by
    match a with
    | ⟨0, _⟩ => show p.val = 0 + p.val; omega
    | ⟨1, _⟩ => show h.val = h.val + 0; omega
    | ⟨2, _⟩ => show g.val = 0 + g.val; omega)

/-- The index of [a, b, c] over (p, d) of [a, c] with g on the reduced middle axis is (p, g, d). -/
theorem liftMid3 {n0 n1 n2 : Nat} (hr : (⟨3, ![n0, n1, n2]⟩ : Shape).Reduces [1] ⟨2, ![n0, n2]⟩) (p : Fin n0) (d : Fin n2)
    (g : Fin n1) : hr.lift (ix2 p d) g = ix3 p g d := by
  funext a
  apply Fin.ext
  match a with
  | ⟨0, _⟩ => rfl
  | ⟨1, _⟩ => rfl
  | ⟨2, _⟩ => rfl

/-- The mix of head h at (p, d): the sum over the 8 value heads of the weight (p, h, g) times the value (p, g, d). -/
theorem mixRow_apply (A : FVec Ideal S128x8x8 .f32) (V : FVec Ideal S128x8x512 .f32) (h : Fin 8)
    (hs : S128x8x8.Slices ![0, h.val, 0] S128x1x8)
    (hc1 : S128x1x8.ShapeCasts S128x8) (hc2 : S128x8.ShapeCasts S128x8x1)
    (hb : S128x8x1.Broadcasts S128x8x512) (hr : S128x8x512.Reduces [1] S128x512)
    (hφ : FKind.Formats .f32) (hacc : (0x00000000#32 : BitVec 32) = FKind.add.neutral .f32 hφ)
    (p : Fin 128) (d : Fin 512) :
    multiReduction .add [1] S128x512 (mulf (broadcastTo S128x8x512 (shapeCast S128x8x1 (shapeCast S128x8
      (extractStridedSlice S128x1x8 ![0, h.val, 0] A hs) hc1) hc2) hb) V) 0x00000000#32 hr hφ hacc (ix2 p d)
      = ∑ g : Fin 8, A (ix3 p h g) * V (ix3 p g d) := by
  refine (Ideal.multiReduction_add_single _ _ hr hφ hacc (ix2 p d)).trans ?_
  refine Finset.sum_congr rfl fun g _ => ?_
  rw [liftMid3 hr p d g]
  show broadcastTo S128x8x512 _ hb (ix3 p g d) * V (ix3 p g d) = _
  rw [sliceWeights_apply A h hs hc1 hc2 hb p g d]

/-- Head 0's mix at (p, d). -/
theorem pay10_apply (v15 v16 v17 : FVec Ideal S128x8x512 .f32) (v23 v29 v35 : FVec Ideal S128x8 .f32)
    (v40 : FVec Ideal S128x8x512 .f32) (p : Fin 128) (d : Fin 512) :
    k0_pay10 v15 v16 v17 v23 v29 v35 v40 (ix2 p d)
      = ∑ g : Fin 8, k0_pay9 v15 v16 v23 v29 v35 v40 (ix3 p (0 : Fin 8) g) * v17 (ix3 p g d) :=
  mixRow_apply (k0_pay9 v15 v16 v23 v29 v35 v40) v17 (0 : Fin 8) _ _ _ _ _ (.inl rfl) rfl p d

end Cert.KernelIdeal.Row

end
-- ==== Proof.KFeatures.lean ====
/-
  The kernel's 4096 mixed features, read at an index.

  The eight mixed heads (the first given, seven summed here from the weights and the projected values), each given a
  unit middle axis, are joined along it to [128, 8, 512] and flattened head-major to [128, 4096]. Whatever function O
  the eight heads are at row p, entry (p, c) is O at c's head and lane.
-/
import proofs.«156535_j58875411694307_2_alg».proof.Proof.Gen.KernelIdeal.Skeleton
import proofs.«156535_j58875411694307_2_alg».proof.Proof.HeadAttention
import proofs.«156535_j58875411694307_2_alg».proof.Proof.LibConcat8
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx
open Idealize.ShloMosaic.LastAxisSoftmax Cert.HeadAttention

/-- The index of [a, b, c] over (p, d) of [a, c] with `g` on the reduced middle axis is (p, g, d). -/
theorem liftMid {n0 n1 n2 : Nat} (hr : (⟨3, ![n0, n1, n2]⟩ : Shape).Reduces [1] ⟨2, ![n0, n2]⟩)
    (p : Fin n0) (d : Fin n2) (g : Fin n1) : hr.lift (ix2 p d) g = ix3 p g d := by
  funext a
  apply Fin.ext
  match a with
  | ⟨0, _⟩ => rfl
  | ⟨1, _⟩ => rfl
  | ⟨2, _⟩ => rfl

/-- One mixed head: row `o` of the weights, sliced out, spread along the lanes, multiplied with the projected values
    and summed over the middle axis, is at (p, d) the sum over g of weight (p, o, g) times value (p, g, d). -/
theorem headSum_apply (v17 : FVec Ideal S128x8x512 .f32) (v85 : FVec Ideal S128x8x8 .f32) (o : ℕ) (ho : o < 8)
    (hs : S128x8x8.Slices ![0, o, 0] S128x1x8) (hφ : FKind.Formats .f32)
    (hacc : (0x00000000#32 : BitVec 32) = 0x00000000#32) (p : Fin 128) (d : Fin 512) :
    multiReduction (F := Ideal) .add [1] S128x512
        (mulf (broadcastTo S128x8x512 (shapeCast S128x8x1 (shapeCast S128x8
          (extractStridedSlice S128x1x8 ![0, o, 0] v85 hs) shapeCasts_S128x1x8_S128x8) shapeCasts_S128x8_S128x8x1)
          broadcasts_S128x8x1_S128x8x512) v17)
        0x00000000#32 reduces_S128x8x512_S128x512 hφ hacc (ix2 p d)
      = ∑ g : Fin 8, v85 (ix3 p ⟨o, ho⟩ g) * v17 (ix3 p g d) := by
  refine (Ideal.multiReduction_add_single _ 0x00000000#32 reduces_S128x8x512_S128x512 hφ hacc (ix2 p d)).trans ?_
  show ∑ g : Fin 8, _ = _
  refine Finset.sum_congr rfl fun g _ => ?_
  rw [liftMid reduces_S128x8x512_S128x512 p d g]
  show broadcastTo S128x8x512 _ broadcasts_S128x8x1_S128x8x512 (ix3 p g d) * v17 (ix3 p g d) = _
  refine congrArg (· * v17 (ix3 p g d)) ?_
  refine (keepdims3_apply _ shapeCasts_S128x8_S128x8x1 broadcasts_S128x8x1_S128x8x512 p g d).trans ?_
  refine (shapeCast_apply _ shapeCasts_S128x1x8_S128x8 (ix2 p g) (ix3 p (0 : Fin 1) g) ?_).trans ?_
  · rw [Shape.rowMajor_val_two, Shape.rowMajor_val_three]
    show (p.val * 1 + 0) * 8 + g.val = p.val * 8 + g.val
    omega
  · refine extractStridedSlice_apply _ v85 hs (ix3 p (0 : Fin 1) g) (ix3 p ⟨o, ho⟩ g) fun a => ?_
    match a with
    | ⟨0, _⟩ => exact (Nat.zero_add _).symm
    | ⟨1, _⟩ => rfl
    | ⟨2, _⟩ => exact (Nat.zero_add _).symm

/-- Eight arrays [128, 512], each given a unit middle axis, joined along it and flattened head-major to [128, 4096]
    (then changed of format, which is the identity here): entry (p, c) is array `c / 512` at (p, c % 512). -/
theorem join8_apply (P : Fin 8 → FVec Ideal S128x512 .f32) (p : Fin 128) (c : Fin 4096) :
    (truncf .bf16 (shapeCast S128x4096 (concatenate S128x8x512 1
      [⟨S128x1x512, shapeCast S128x1x512 (P 0) shapeCasts_S128x512_S128x1x512⟩,
       ⟨S128x1x512, shapeCast S128x1x512 (P 1) shapeCasts_S128x512_S128x1x512⟩,
       ⟨S128x1x512, shapeCast S128x1x512 (P 2) shapeCasts_S128x512_S128x1x512⟩,
       ⟨S128x1x512, shapeCast S128x1x512 (P 3) shapeCasts_S128x512_S128x1x512⟩,
       ⟨S128x1x512, shapeCast S128x1x512 (P 4) shapeCasts_S128x512_S128x1x512⟩,
       ⟨S128x1x512, shapeCast S128x1x512 (P 5) shapeCasts_S128x512_S128x1x512⟩,
       ⟨S128x1x512, shapeCast S128x1x512 (P 6) shapeCasts_S128x512_S128x1x512⟩,
       ⟨S128x1x512, shapeCast S128x1x512 (P 7) shapeCasts_S128x512_S128x1x512⟩]
      concatenates_S128x1x512_S128x1x512_S128x1x512_S128x1x512_S128x1x512_S128x1x512_S128x1x512_S128x1x512_S128x8x512_d1)
      shapeCasts_S128x8x512_S128x4096) bitsLt_bf16_f32 : FVec Ideal S128x4096 .bf16) (ix2 p c)
      = P (headOf c) (ix2 p (laneOf c)) := by
  rw [truncf_apply]
  refine (shapeCast_apply _ shapeCasts_S128x8x512_S128x4096 (ix2 p c) (ix3 p (headOf c) (laneOf c)) ?_).trans ?_
  · rw [Shape.rowMajor_val_two, Shape.rowMajor_val_three]
    show (p.val * 8 + c.val / 512) * 512 + c.val % 512 = p.val * 4096 + c.val
    omega
  refine (Cert.LibConcat8.concat8_mid_apply
    (fun h : Fin 8 => shapeCast S128x1x512 (P h) shapeCasts_S128x512_S128x1x512) _ p (headOf c) (laneOf c)).trans ?_
  refine shapeCast_apply _ shapeCasts_S128x512_S128x1x512 _ (ix2 p (laneOf c)) ?_
  rw [Shape.rowMajor_val_two, Shape.rowMajor_val_three]
  show p.val * 512 + (laneOf c).val = (p.val * 1 + 0) * 512 + (laneOf c).val
  omega

/-- The same with the eight arrays named one by one. -/
theorem join8_apply' (P0 P1 P2 P3 P4 P5 P6 P7 : FVec Ideal S128x512 .f32) (p : Fin 128) (c : Fin 4096) :
    (truncf .bf16 (shapeCast S128x4096 (concatenate S128x8x512 1
      [⟨S128x1x512, shapeCast S128x1x512 P0 shapeCasts_S128x512_S128x1x512⟩,
       ⟨S128x1x512, shapeCast S128x1x512 P1 shapeCasts_S128x512_S128x1x512⟩,
       ⟨S128x1x512, shapeCast S128x1x512 P2 shapeCasts_S128x512_S128x1x512⟩,
       ⟨S128x1x512, shapeCast S128x1x512 P3 shapeCasts_S128x512_S128x1x512⟩,
       ⟨S128x1x512, shapeCast S128x1x512 P4 shapeCasts_S128x512_S128x1x512⟩,
       ⟨S128x1x512, shapeCast S128x1x512 P5 shapeCasts_S128x512_S128x1x512⟩,
       ⟨S128x1x512, shapeCast S128x1x512 P6 shapeCasts_S128x512_S128x1x512⟩,
       ⟨S128x1x512, shapeCast S128x1x512 P7 shapeCasts_S128x512_S128x1x512⟩]
      concatenates_S128x1x512_S128x1x512_S128x1x512_S128x1x512_S128x1x512_S128x1x512_S128x1x512_S128x1x512_S128x8x512_d1)
      shapeCasts_S128x8x512_S128x4096) bitsLt_bf16_f32 : FVec Ideal S128x4096 .bf16) (ix2 p c)
      = (![P0, P1, P2, P3, P4, P5, P6, P7] : Fin 8 → FVec Ideal S128x512 .f32) (headOf c) (ix2 p (laneOf c)) :=
  join8_apply (![P0, P1, P2, P3, P4, P5, P6, P7] : Fin 8 → FVec Ideal S128x512 .f32) p c

/-- The mixed features at (p, c). -/
theorem pay11_apply (v17 : FVec Ideal S128x8x512 .f32) (v85 : FVec Ideal S128x8x8 .f32) (v91 : FVec Ideal S128x512 .f32)
    (O : Fin 8 → Fin 512 → EReal) (p : Fin 128)
    (h0 : ∀ d : Fin 512, v91 (ix2 p d) = O 0 d)
    (h1 : ∀ h : Fin 8, 1 ≤ h.val → ∀ d : Fin 512, ∑ g : Fin 8, v85 (ix3 p h g) * v17 (ix3 p g d) = O h d)
    (c : Fin 4096) :
    k0_pay11 v17 v85 v91 (ix2 p c) = O (headOf c) (laneOf c) := by
  unfold k0_pay11
  refine (join8_apply' _ _ _ _ _ _ _ _ p c).trans ?_
  generalize headOf c = h
  generalize laneOf c = d
  match h with
  | ⟨0, _⟩ => exact h0 d
  | ⟨1, hh⟩ => exact (headSum_apply v17 v85 1 hh slices_S128x8x8_o0_1_0_S128x1x8 (.inl rfl) rfl p d).trans (h1 ⟨1, hh⟩ (show (1 : ℕ) ≤ 1 by omega) d)
  | ⟨2, hh⟩ => exact (headSum_apply v17 v85 2 hh slices_S128x8x8_o0_2_0_S128x1x8 (.inl rfl) rfl p d).trans (h1 ⟨2, hh⟩ (show (1 : ℕ) ≤ 2 by omega) d)
  | ⟨3, hh⟩ => exact (headSum_apply v17 v85 3 hh slices_S128x8x8_o0_3_0_S128x1x8 (.inl rfl) rfl p d).trans (h1 ⟨3, hh⟩ (show (1 : ℕ) ≤ 3 by omega) d)
  | ⟨4, hh⟩ => exact (headSum_apply v17 v85 4 hh slices_S128x8x8_o0_4_0_S128x1x8 (.inl rfl) rfl p d).trans (h1 ⟨4, hh⟩ (show (1 : ℕ) ≤ 4 by omega) d)
  | ⟨5, hh⟩ => exact (headSum_apply v17 v85 5 hh slices_S128x8x8_o0_5_0_S128x1x8 (.inl rfl) rfl p d).trans (h1 ⟨5, hh⟩ (show (1 : ℕ) ≤ 5 by omega) d)
  | ⟨6, hh⟩ => exact (headSum_apply v17 v85 6 hh slices_S128x8x8_o0_6_0_S128x1x8 (.inl rfl) rfl p d).trans (h1 ⟨6, hh⟩ (show (1 : ℕ) ≤ 6 by omega) d)
  | ⟨7, hh⟩ => exact (headSum_apply v17 v85 7 hh slices_S128x8x8_o0_7_0_S128x1x8 (.inl rfl) rfl p d).trans (h1 ⟨7, hh⟩ (show (1 : ℕ) ≤ 7 by omega) d)

end Cert.KernelIdeal.Row

end
-- ==== Proof.KernelRow.lean ====
/-
  One grid point's output block, read at an index: row p, column j is one token's attention output.

  The body's single store writes the output projection of the 4096 mixed features plus the bias. The features at
  (p, c) are the mixed heads at c's head and lane; the mixed heads are the weighted sums of the projected values; the
  weights are the softmax of the scores; the scores are inner products of the projected queries and keys; and each
  projection at (p, h, d) is row p's product with column h · 512 + d. Composed, the block at (p, j) is `token` of row p
  of the three input blocks, the four weight matrices and the bias row.
-/
import proofs.«156535_j58875411694307_2_alg».proof.Proof.Gen.KernelIdeal.Frame
import proofs.«156535_j58875411694307_2_alg».proof.Proof.KProjections
import proofs.«156535_j58875411694307_2_alg».proof.Proof.KScores
import proofs.«156535_j58875411694307_2_alg».proof.Proof.KWeights
import proofs.«156535_j58875411694307_2_alg».proof.Proof.KMix
import proofs.«156535_j58875411694307_2_alg».proof.Proof.KFeatures

noncomputable section

open scoped BigOperators

namespace Cert.KernelIdeal.Row

open Cert.KernelIdeal Cert.KernelIdeal.Gen Idealize.ShloMosaic Idealize.ShloMosaic.ValueIdx
open Idealize.ShloMosaic.LastAxisSoftmax Cert.HeadAttention

theorem hz : (![0, 0] : Fin 2 → Nat) = fun _ => 0 := funext fun a => by fin_cases a <;> rfl

section
variable (x0 x1 x2 : Vec Ideal S128x512 .f32) (x3 x4 x5 : Vec Ideal S512x4096 .bf16) (p : Fin 128)

/-- Every score the body computes, whichever way it is staged, is the inner product of the projected query head
    with the projected key head. -/
theorem weights_apply (h g : Fin 8) :
    k0_pay9 (k0_pay2 x0 x3) (k0_pay3 x1 x4) (k0_pay5 x0 x1 x3 x4) (k0_pay6 x0 x1 x3 x4) (k0_pay7 x0 x1 x3 x4)
        (k0_pay8 x0 x1 x3 x4) (ix3 p h g)
      = weight (proj (fun k => x0 (ix2 p k)) (fun k c => x3 (ix2 k c))) (proj (fun k => x1 (ix2 p k)) (fun k c => x4 (ix2 k c))) h g := by
  refine pay9_apply _ _ _ _ _ _
    (score (proj (fun k => x0 (ix2 p k)) (fun k c => x3 (ix2 k c))) (proj (fun k => x1 (ix2 p k)) (fun k c => x4 (ix2 k c))))
    p ?_ ?_ ?_ ?_ ?_ h g
  · intro g'
    rw [pay5_apply]
    exact Finset.sum_congr rfl fun d _ => by rw [pay2_apply, pay3_apply]
  · intro g'
    rw [pay6_apply]
    exact Finset.sum_congr rfl fun d _ => by rw [pay2_apply, pay3_apply]
  · intro g'
    rw [pay7_apply]
    exact Finset.sum_congr rfl fun d _ => by rw [pay2_apply, pay3_apply]
  · intro g'
    exact Finset.sum_congr rfl fun d _ => by rw [pay8_apply, pay2_apply, pay3_apply]
  · intro h' _ g'
    exact Finset.sum_congr rfl fun d _ => by rw [pay2_apply, pay3_apply]

/-- The mixed features at (p, c): head and lane of c of the value heads mixed by the weights. -/
theorem features_apply (c : Fin 4096) :
    k0_pay11 (k0_pay4 x2 x5)
        (k0_pay9 (k0_pay2 x0 x3) (k0_pay3 x1 x4) (k0_pay5 x0 x1 x3 x4) (k0_pay6 x0 x1 x3 x4) (k0_pay7 x0 x1 x3 x4)
          (k0_pay8 x0 x1 x3 x4))
        (k0_pay10 (k0_pay2 x0 x3) (k0_pay3 x1 x4) (k0_pay4 x2 x5) (k0_pay5 x0 x1 x3 x4) (k0_pay6 x0 x1 x3 x4)
          (k0_pay7 x0 x1 x3 x4) (k0_pay8 x0 x1 x3 x4)) (ix2 p c)
      = mix (weight (proj (fun k => x0 (ix2 p k)) (fun k c => x3 (ix2 k c))) (proj (fun k => x1 (ix2 p k)) (fun k c => x4 (ix2 k c))))
          (proj (fun k => x2 (ix2 p k)) (fun k c => x5 (ix2 k c))) (headOf c) (laneOf c) := by
  refine pay11_apply _ _ _ _ p ?_ ?_ c
  · intro d
    rw [pay10_apply]
    exact Finset.sum_congr rfl fun g _ => by rw [weights_apply, pay4_apply]
  · intro h _ d
    exact Finset.sum_congr rfl fun g _ => by rw [weights_apply, pay4_apply]

end

/-- The block the body leaves in the output window at (p, j). -/
theorem out_apply (x0 x1 x2 : Vec Ideal S128x512 .f32) (x3 x4 x5 : Vec Ideal S512x4096 .bf16)
    (x6 : Vec Ideal S4096x512 .bf16) (x7 : Vec Ideal S1x512 .f32) (p : Fin 128) (j : Fin 512) :
    out0_8 x0 x1 x2 x3 x4 x5 x6 x7 (ix2 p j)
      = token (fun k => x0 (ix2 p k)) (fun k => x1 (ix2 p k)) (fun k => x2 (ix2 p k))
          (fun k c => x3 (ix2 k c)) (fun k c => x4 (ix2 k c)) (fun k c => x5 (ix2 k c))
          (fun c j => x6 (ix2 c j)) (fun j => x7 (ix2 (0 : Fin 1) j)) j := by
  unfold out0_8
  rw [View.canon_unit_zero hz]
  simp only [View.ld_unit_zero (S := S128x512) hz, View.ld_unit_zero (S := S512x4096) hz,
    View.ld_unit_zero (S := S4096x512) hz, View.ld_unit_zero (S := S1x512) hz]
  refine (pay1_apply _ _ _ p j).trans ?_
  unfold token outp
  refine congrArg (· + x7 (ix2 (0 : Fin 1) j)) ?_
  exact Finset.sum_congr rfl fun c _ => by rw [features_apply]

end Cert.KernelIdeal.Row

end
-- ==== Proof.AttentionArray.lean ====
/-
  The whole result array: row n, column j is one token's attention output.

  The three inputs are [32768, 512] arrays, one row per token; the four weight matrices and the bias are shared
  by all tokens. Entry (n, j) of the result is `token` of row n of the three inputs at column j.
-/
import proofs.«156535_j58875411694307_2_alg».proof.Proof.HeadAttention
import Idealize.ShloMosaic.Lib.ValueIdx

noncomputable section

namespace Cert.HeadAttention

open Idealize.ShloMosaic Idealize.ShloMosaic.ValueIdx

/-- The attention of every token: the result array as one function of the eight argument arrays. -/
def attention (q k v : (⟨2, ![32768, 512]⟩ : Shape).Idx → EReal) (Wq Wk Wv : (⟨2, ![512, 4096]⟩ : Shape).Idx → EReal)
    (Wo : (⟨2, ![4096, 512]⟩ : Shape).Idx → EReal) (bo : (⟨1, ![512]⟩ : Shape).Idx → EReal) :
    (⟨2, ![32768, 512]⟩ : Shape).Idx → EReal :=
  fun i => token (fun e => q (ix2 (⟨(i 0).val, idx2_lt0 i⟩ : Fin 32768) e)) (fun e => k (ix2 (⟨(i 0).val, idx2_lt0 i⟩ : Fin 32768) e))
    (fun e => v (ix2 (⟨(i 0).val, idx2_lt0 i⟩ : Fin 32768) e))
    (fun e c => Wq (ix2 e c)) (fun e c => Wk (ix2 e c)) (fun e c => Wv (ix2 e c)) (fun c j => Wo (ix2 c j)) (fun j => bo (ix1 j))
    (⟨(i 1).val, idx2_lt1 i⟩ : Fin 512)

/-- At (n, j) it is `token` of row n. -/
theorem attention_apply (q k v : (⟨2, ![32768, 512]⟩ : Shape).Idx → EReal) (Wq Wk Wv : (⟨2, ![512, 4096]⟩ : Shape).Idx → EReal)
    (Wo : (⟨2, ![4096, 512]⟩ : Shape).Idx → EReal) (bo : (⟨1, ![512]⟩ : Shape).Idx → EReal) (n : Fin 32768) (j : Fin 512) :
    attention q k v Wq Wk Wv Wo bo (ix2 n j)
      = token (fun e => q (ix2 n e)) (fun e => k (ix2 n e)) (fun e => v (ix2 n e))
          (fun e c => Wq (ix2 e c)) (fun e c => Wk (ix2 e c)) (fun e c => Wv (ix2 e c)) (fun c j => Wo (ix2 c j))
          (fun j => bo (ix1 j)) j := rfl

end Cert.HeadAttention

end
-- ==== Proof.WholeArray.lean ====
/-
  From blocks to the array: after the kernel's run the result array is the attention of every token.

  The grid has 256 points; point t stages rows 128·t … 128·t + 127 of the three inputs, the whole of the four weight
  matrices and of the bias row, and writes back rows 128·t … 128·t + 127 of the result. The weight matrices the
  region finds are the arguments after a change of float format (the identity on the extended reals), the bias row
  is the bias vector given a unit leading axis. So what point t writes back is block t of `attention` of the
  arguments, and the 256 blocks cover the array.
-/
import proofs.«156535_j58875411694307_2_alg».proof.Proof.Gen.KernelIdeal.Value
import proofs.«156535_j58875411694307_2_alg».proof.Proof.KernelRow
import proofs.«156535_j58875411694307_2_alg».proof.Proof.AttentionArray
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.HeadAttention

variable (m : (ℓ : Loc nD τ sig) → Buf (Elt Ideal) ℓ) (ρ : Dev nD → PrngReg)

/-- The result the kernel's run leaves: the attention of the argument arrays. -/
abbrev result (c : Dev nD) : S32768x512.Idx → EReal :=
  attention (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The printed index maps, decided over the grid: the three inputs and the result move one block of rows per
    point; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row p of point t's blocks is row 128·t + p of the arrays. -/
def rowOf (t : Fin cfg0.N) (p : Fin 128) : Fin 32768 :=
  ⟨128 * t.val + p.val, by have := t.isLt; have hN : cfg0.N = 256 := N_0; have := p.isLt; omega⟩

/-! ## The arrays the region finds -/

/-- The query weights the region finds are the argument: a change of float format is the identity. -/
theorem V_wq (c : Dev nD) : (V m c main_v0 : S512x4096.Idx → EReal) = (m ((c : Thread nD τ).loc main_arg3) : S512x4096.Idx → EReal) := by
  dsimp only [Gen.V, Gen.hostOps0]; after_results; rfl

/-- The key weights the region finds are the argument. -/
theorem V_wk (c : Dev nD) : (V m c main_v1 : S512x4096.Idx → EReal) = (m ((c : Thread nD τ).loc main_arg4) : S512x4096.Idx → EReal) := by
  dsimp only [Gen.V, Gen.hostOps0]; after_results; rfl

/-- The value weights the region finds are the argument. -/
theorem V_wv (c : Dev nD) : (V m c main_v2 : S512x4096.Idx → EReal) = (m ((c : Thread nD τ).loc main_arg5) : S512x4096.Idx → EReal) := by
  dsimp only [Gen.V, Gen.hostOps0]; after_results; rfl

/-- The output weights the region finds are the argument. -/
theorem V_wo (c : Dev nD) : (V m c main_v3 : S4096x512.Idx → EReal) = (m ((c : Thread nD τ).loc main_arg6) : S4096x512.Idx → EReal) := by
  dsimp only [Gen.V, Gen.hostOps0]; after_results; rfl

/-- The bias row the region finds is the bias vector with a unit leading axis. -/
theorem V_bias (c : Dev nD) : (V m c main_v4 : S1x512.Idx → EReal)
    = shapeCast S1x512 (m ((c : Thread nD τ).loc main_arg7) : S512.Idx → EReal) shapeCasts_S512_S1x512 := by
  dsimp only [Gen.V, Gen.hostOps0]; after_results; rfl

/-! ## Each window's block at a point, as entries of the argument arrays -/

/-- Row p of point t's query block is row 128·t + p of the queries. -/
theorem rows_q (c : Dev nD) (t : Fin cfg0.N) (p : Fin 128) (e : Fin 512) :
    (iblk m c 0 t : Vec Ideal S128x512 .f32) (ix2 p e)
      = (m ((c : Thread nD τ).loc main_arg0) : S32768x512.Idx → EReal) (ix2 (rowOf t p) e) := by
  obtain ⟨e00, e01, e10, e11, e20, e21, -⟩ := idx_facts t
  unfold iblk
  rw [View.read_apply]
  show V m c main_arg0 (((cfg0.win 0).blk t).view.emb (ix2 p e)) = _
  rw [V_main_arg0]
  refine congrArg (m ((c : Thread nD τ).loc main_arg0)) ?_
  funext a
  apply Fin.ext
  match a with
  | ⟨0, _⟩ => show win0_0.index t (0 : Fin 2) * 128 + 1 * p.val = 128 * t.val + p.val; omega
  | ⟨1, _⟩ => show win0_0.index t (1 : Fin 2) * 512 + 1 * e.val = e.val; omega

/-- Row p of point t's key block is row 128·t + p of the keys. -/
theorem rows_k (c : Dev nD) (t : Fin cfg0.N) (p : Fin 128) (e : Fin 512) :
    (iblk m c 1 t : Vec Ideal S128x512 .f32) (ix2 p e)
      = (m ((c : Thread nD τ).loc main_arg1) : S32768x512.Idx → EReal) (ix2 (rowOf t p) e) := by
  obtain ⟨e00, e01, e10, e11, e20, e21, -⟩ := idx_facts t
  unfold iblk
  rw [View.read_apply]
  show V m c main_arg1 (((cfg0.win 1).blk t).view.emb (ix2 p e)) = _
  rw [V_main_arg1]
  refine congrArg (m ((c : Thread nD τ).loc main_arg1)) ?_
  funext a
  apply Fin.ext
  match a with
  | ⟨0, _⟩ => show win0_1.index t (0 : Fin 2) * 128 + 1 * p.val = 128 * t.val + p.val; omega
  | ⟨1, _⟩ => show win0_1.index t (1 : Fin 2) * 512 + 1 * e.val = e.val; omega

/-- Row p of point t's value block is row 128·t + p of the values. -/
theorem rows_v (c : Dev nD) (t : Fin cfg0.N) (p : Fin 128) (e : Fin 512) :
    (iblk m c 2 t : Vec Ideal S128x512 .f32) (ix2 p e)
      = (m ((c : Thread nD τ).loc main_arg2) : S32768x512.Idx → EReal) (ix2 (rowOf t p) e) := by
  obtain ⟨e00, e01, e10, e11, e20, e21, -⟩ := idx_facts t
  unfold iblk
  rw [View.read_apply]
  show V m c main_arg2 (((cfg0.win 2).blk t).view.emb (ix2 p e)) = _
  rw [V_main_arg2]
  refine congrArg (m ((c : Thread nD τ).loc main_arg2)) ?_
  funext a
  apply Fin.ext
  match a with
  | ⟨0, _⟩ => show win0_2.index t (0 : Fin 2) * 128 + 1 * p.val = 128 * t.val + p.val; omega
  | ⟨1, _⟩ => show win0_2.index t (1 : Fin 2) * 512 + 1 * e.val = e.val; omega

/-- Every point stages the whole query weights. -/
theorem blk_wq (c : Dev nD) (t : Fin cfg0.N) (a : Fin 512) (b : Fin 4096) :
    (iblk m c 3 t : Vec Ideal S512x4096 .bf16) (ix2 a b)
      = (m ((c : Thread nD τ).loc main_arg3) : S512x4096.Idx → EReal) (ix2 a b) := by
  obtain ⟨-, -, -, -, -, -, e30, e31, e40, e41, e50, e51, e60, e61, -⟩ := idx_facts t
  unfold iblk
  rw [View.read_apply]
  show V m c main_v0 (((cfg0.win 3).blk t).view.emb (ix2 a b)) = _
  refine (congrFun (V_wq m c) _).trans ?_
  refine congrArg (m ((c : Thread nD τ).loc main_arg3)) ?_
  funext x
  apply Fin.ext
  match x with
  | ⟨0, _⟩ => show win0_3.index t (0 : Fin 2) * 512 + 1 * a.val = a.val; omega
  | ⟨1, _⟩ => show win0_3.index t (1 : Fin 2) * 4096 + 1 * b.val = b.val; omega

/-- Every point stages the whole key weights. -/
theorem blk_wk (c : Dev nD) (t : Fin cfg0.N) (a : Fin 512) (b : Fin 4096) :
    (iblk m c 4 t : Vec Ideal S512x4096 .bf16) (ix2 a b)
      = (m ((c : Thread nD τ).loc main_arg4) : S512x4096.Idx → EReal) (ix2 a b) := by
  obtain ⟨-, -, -, -, -, -, e30, e31, e40, e41, e50, e51, e60, e61, -⟩ := idx_facts t
  unfold iblk
  rw [View.read_apply]
  show V m c main_v1 (((cfg0.win 4).blk t).view.emb (ix2 a b)) = _
  refine (congrFun (V_wk m c) _).trans ?_
  refine congrArg (m ((c : Thread nD τ).loc main_arg4)) ?_
  funext x
  apply Fin.ext
  match x with
  | ⟨0, _⟩ => show win0_4.index t (0 : Fin 2) * 512 + 1 * a.val = a.val; omega
  | ⟨1, _⟩ => show win0_4.index t (1 : Fin 2) * 4096 + 1 * b.val = b.val; omega

/-- Every point stages the whole value weights. -/
theorem blk_wv (c : Dev nD) (t : Fin cfg0.N) (a : Fin 512) (b : Fin 4096) :
    (iblk m c 5 t : Vec Ideal S512x4096 .bf16) (ix2 a b)
      = (m ((c : Thread nD τ).loc main_arg5) : S512x4096.Idx → EReal) (ix2 a b) := by
  obtain ⟨-, -, -, -, -, -, e30, e31, e40, e41, e50, e51, e60, e61, -⟩ := idx_facts t
  unfold iblk
  rw [View.read_apply]
  show V m c main_v2 (((cfg0.win 5).blk t).view.emb (ix2 a b)) = _
  refine (congrFun (V_wv m c) _).trans ?_
  refine congrArg (m ((c : Thread nD τ).loc main_arg5)) ?_
  funext x
  apply Fin.ext
  match x with
  | ⟨0, _⟩ => show win0_5.index t (0 : Fin 2) * 512 + 1 * a.val = a.val; omega
  | ⟨1, _⟩ => show win0_5.index t (1 : Fin 2) * 4096 + 1 * b.val = b.val; omega

/-- Every point stages the whole output weights. -/
theorem blk_wo (c : Dev nD) (t : Fin cfg0.N) (a : Fin 4096) (b : Fin 512) :
    (iblk m c 6 t : Vec Ideal S4096x512 .bf16) (ix2 a b)
      = (m ((c : Thread nD τ).loc main_arg6) : S4096x512.Idx → EReal) (ix2 a b) := by
  obtain ⟨-, -, -, -, -, -, e30, e31, e40, e41, e50, e51, e60, e61, -⟩ := idx_facts t
  unfold iblk
  rw [View.read_apply]
  show V m c main_v3 (((cfg0.win 6).blk t).view.emb (ix2 a b)) = _
  refine (congrFun (V_wo m c) _).trans ?_
  refine congrArg (m ((c : Thread nD τ).loc main_arg6)) ?_
  funext x
  apply Fin.ext
  match x with
  | ⟨0, _⟩ => show win0_6.index t (0 : Fin 2) * 4096 + 1 * a.val = a.val; omega
  | ⟨1, _⟩ => show win0_6.index t (1 : Fin 2) * 512 + 1 * b.val = b.val; omega

/-- Every point stages the whole bias row: its entry j is the bias vector's entry j. -/
theorem blk_bias (c : Dev nD) (t : Fin cfg0.N) (j : Fin 512) :
    (iblk m c 7 t : Vec Ideal S1x512 .f32) (ix2 (0 : Fin 1) j)
      = (m ((c : Thread nD τ).loc main_arg7) : S512.Idx → EReal) (ix1 j) := by
  obtain ⟨-, -, -, -, -, -, -, -, -, -, -, -, -, -, e70, e71, -⟩ := idx_facts t
  unfold iblk
  rw [View.read_apply]
  show V m c main_v4 (((cfg0.win 7).blk t).view.emb (ix2 (0 : Fin 1) j)) = _
  refine (congrFun (V_bias m c) _).trans ?_
  refine (congrArg (shapeCast S1x512 (m ((c : Thread nD τ).loc main_arg7) : S512.Idx → EReal) shapeCasts_S512_S1x512)
    (?_ : ((cfg0.win 7).blk t).view.emb (ix2 (0 : Fin 1) j) = ix2 (0 : Fin 1) j)).trans (shapeCast_a_1a_apply _ _ _ _)
  funext x
  apply Fin.ext
  match x with
  | ⟨0, _⟩ => show win0_7.index t (0 : Fin 2) * 1 + 1 * 0 = 0; omega
  | ⟨1, _⟩ => show win0_7.index t (1 : Fin 2) * 512 + 1 * j.val = j.val; omega

/-! ## What a point writes back, the cover, the array -/

/-- Point t writes back block t of the attention of the argument arrays. -/
theorem flushed_eq (c : Dev nD) (t : Fin cfg0.N) :
    (dats m 0 c).flushed 8 t = ((cfg0.win 8).blk t).view.read (Elt Ideal) (result m c) := by
  obtain ⟨-, -, -, -, -, -, -, -, -, -, -, -, -, -, -, -, e80, e81⟩ := idx_facts t
  show (cfg0.win 8).cut (grid0.coords t) ((dats m 0 c).after 8 t) = _
  rw [after0_8]
  funext y
  obtain ⟨p, j, rfl⟩ : ∃ (p : Fin 128) (j : Fin 512), y = ix2 p j := ⟨y 0, y 1, eq_ix2 y⟩
  have hemb : ((cfg0.win 8).blk t).view.emb (ix2 p j) = ix2 (rowOf t p) j := by
    funext a
    apply Fin.ext
    match a with
    | ⟨0, _⟩ => show win0_8.index t (0 : Fin 2) * 128 + 1 * p.val = 128 * t.val + p.val; omega
    | ⟨1, _⟩ => show win0_8.index t (1 : Fin 2) * 512 + 1 * j.val = j.val; omega
  show out0_8 (iblk m c 0 t) (iblk m c 1 t) (iblk m c 2 t) (iblk m c 3 t) (iblk m c 4 t) (iblk m c 5 t) (iblk m c 6 t)
      (iblk m c 7 t) (ix2 p j) = result m c (((cfg0.win 8).blk t).view.emb (ix2 p j))
  rw [hemb]
  refine (Row.out_apply _ _ _ _ _ _ _ _ p j).trans ?_
  show _ = token _ _ _ _ _ _ _ _ j
  simp only [rows_q m c t p, rows_k m c t p, rows_v m c t p, blk_wq m c t, blk_wk m c t, blk_wv m c t, blk_wo m c t,
    blk_bias m c t]

/-- Membership in point t's output block, coordinate by coordinate. -/
theorem mem_blk (t : Fin cfg0.N) (i : S32768x512.Idx) :
    i ∈ ((cfg0.win 8).blk t).view.set ↔ ∀ a : Fin 2, win0_8.index t a * S128x512.size a ≤ (i a).val
      ∧ (i a).val < win0_8.index t a * S128x512.size a + S128x512.size a := by
  show i ∈ ((View.whole main_v5).slice (win0_8.rect t)).set ↔ _
  rw [View.set_slice_whole, Rect.mem_set_unit]
  exact Iff.rfl

/-- Row r of the result lies in the block of point r / 128: the 256 blocks cover the array. -/
theorem cover (i : S32768x512.Idx) : ∃ t : Fin cfg0.N, (cfg0.win 8).flush t = true ∧ i ∈ ((cfg0.win 8).blk t).view.set := by
  have hN : cfg0.N = 256 := N_0
  have hi0 : (i 0).val < 32768 := (i 0).isLt
  have hi1 : (i 1).val < 512 := (i 1).isLt
  refine ⟨⟨(i 0).val / 128, by omega⟩, flush0_8 _, ?_⟩
  obtain ⟨-, -, -, -, -, -, -, -, -, -, -, -, -, -, -, -, e80, e81⟩ := idx_facts ⟨(i 0).val / 128, by omega⟩
  rw [mem_blk]
  intro a
  match a with
  | ⟨0, _⟩ =>
    show win0_8.index ⟨(i 0).val / 128, _⟩ (0 : Fin 2) * 128 ≤ (i 0).val
      ∧ (i 0).val < win0_8.index ⟨(i 0).val / 128, _⟩ (0 : Fin 2) * 128 + 128
    rw [e80]
    show (i 0).val / 128 * 128 ≤ (i 0).val ∧ (i 0).val < (i 0).val / 128 * 128 + 128
    omega
  | ⟨1, _⟩ =>
    show win0_8.index ⟨(i 0).val / 128, _⟩ (1 : Fin 2) * 512 ≤ (i 1).val
      ∧ (i 1).val < win0_8.index ⟨(i 0).val / 128, _⟩ (1 : Fin 2) * 512 + 512
    rw [e81]
    omega

/-- After the run the result array is the attention of the argument arrays. -/
theorem final (c : Dev nD) : (dats m 0 c).arrAt 8 cfg0.N = result m c :=
  (dats m 0 c).arrAt_eq_of_cover 8 (result m c) (fun t _ => flushed_eq m c t) cover

/-- The kernel's run, read: the result array at the attention of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Cert.KernelIdeal.Value.run_blocks m ρ)

end Cert.KernelIdeal.Whole

end
-- ==== Proof.LibHostSoftmax3.lean ====
/-
  Softmax along the last axis of a rank-3 array as a host program writes it, read at an index, on the
  extended reals.

  On an array [a, b, c] the host program takes the maximum over axis 2 from the word of minus infinity,
  joins it once more with minus infinity (which changes nothing), spreads it back through [a, b, 1] to
  [a, b, c], subtracts, exponentiates, sums over axis 2 from zero, spreads the sum back the same way and
  divides (`hostSoftmax3`). Read at (p, g, l) it is `softmaxAt` of the row (p, g, ·) at `l`
  (`hostSoftmax3_apply`). The only laws used are max b (fold max b f) = fold max b f and 0 + s = s.
-/
import proofs.«156535_j58875411694307_2_alg».proof.Proof.LibLastAxisSoftmax

noncomputable section

open scoped BigOperators

namespace Idealize.ShloMosaic.LastAxisSoftmax

open Idealize.ShloMosaic Idealize.ShloMosaic.ValueIdx

section Host3
variable {n0 n1 n2 : Nat}

/-- A reduced array [a, b], broadcast to [a, b, 1] and then along the unit axis to [a, b, c], reads at
    (p, g, l) what it held at (p, g). -/
theorem keepdims3_host_apply {α : Type} (v : (⟨2, ![n0, n1]⟩ : Shape).Idx → α)
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    broadcastInDim ⟨3, ![n0, n1, n2]⟩ ![0, 1, 2] h2 (broadcastInDim ⟨3, ![n0, n1, 1]⟩ ![0, 1] h1 v) (ix3 p g l)
      = v (ix2 p g) := by
  rw [broadcastInDim_apply _ h2 _ (ix3 p g l) (ix3 p g (⟨0, Nat.one_pos⟩ : Fin 1)) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact broadcastInDim_apply _ h1 v _ (ix2 p g) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl)

variable {F : FTy → Type} [FloatOps F]

/-- The host program: the maximum over axis 2 joined with minus infinity, subtracted, exponentiated, divided by
    the sum over axis 2 (from zero). -/
def hostSoftmax3 (X : FVec F ⟨3, ![n0, n1, n2]⟩ .f32)
    (hred : (⟨3, ![n0, n1, n2]⟩ : Shape).ReducesTo [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3)) :
    FVec F ⟨3, ![n0, n1, n2]⟩ .f32 :=
  Host.divf
    (Host.exp (subf X (broadcastInDim ⟨3, ![n0, n1, n2]⟩ ![0, 1, 2] h2 (broadcastInDim ⟨3, ![n0, n1, 1]⟩ ![0, 1] h1
      (maximumf (broadcastInDim ⟨2, ![n0, n1]⟩ ![] h0 (constant ⟨0, ![]⟩ .f32 0xFF800000#32))
        (Host.reduce FloatOps.maximumf X (constant ⟨0, ![]⟩ .f32 0xFF800000#32) hred hu))))))
    (broadcastInDim ⟨3, ![n0, n1, n2]⟩ ![0, 1, 2] h2 (broadcastInDim ⟨3, ![n0, n1, 1]⟩ ![0, 1] h1
      (Host.reduceAdd
        (Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host3

/-- Read at (p, g, l), the host program is the softmax of row (p, g, ·) at `l`. -/
theorem hostSoftmax3_apply {n0 n1 n2 : Nat} (X : FVec Ideal ⟨3, ![n0, n1, n2]⟩ .f32)
    (hred : (⟨3, ![n0, n1, n2]⟩ : Shape).ReducesTo [2] ⟨2, ![n0, n1]⟩)
    (hr : (⟨3, ![n0, n1, n2]⟩ : Shape).Reduces [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    hostSoftmax3 (F := Ideal) X hred hu h0 h1 h2 (ix3 p g l) = softmaxAt (fun k : Fin n2 => X (ix3 p g k)) l := by
  -- the maximum at (p, g): joining the fold from minus infinity with minus infinity changes nothing
  have hM : maximumf (broadcastInDim ⟨2, ![n0, n1]⟩ ![] h0 (constant (F := Ideal) ⟨0, ![]⟩ .f32 0xFF800000#32))
        (Host.reduce FloatOps.maximumf X (constant (F := Ideal) ⟨0, ![]⟩ .f32 0xFF800000#32) hred hu) (ix2 p g)
      = (Finset.univ : Finset (Fin n2)).fold max negInf (fun k : Fin n2 => X (ix3 p g k)) := by
    show max (broadcastInDim ⟨2, ![n0, n1]⟩ ![] h0 (constant (F := Ideal) ⟨0, ![]⟩ .f32 0xFF800000#32) (ix2 p g))
        (Host.reduce FloatOps.maximumf X (constant (F := Ideal) ⟨0, ![]⟩ .f32 0xFF800000#32) hred hu (ix2 p g)) = _
    rw [Host.reduce_eq_fold_single FloatOps.maximumf X _ hred hr hu (ix2 p g),
      broadcastInDim_apply _ h0 _ (ix2 p g) ix0 (fun d => d.elim0)]
    show max negInf (Finset.univ.fold max negInf (X ∘ hr.lift (ix2 p g))) = _
    rw [max_eq_right ((Finset.le_fold_max _).2 (Or.inl le_rfl))]
    exact congrArg (fun f : Fin n2 → EReal => (Finset.univ : Finset (Fin n2)).fold max negInf f)
      (funext fun k => congrArg X (lift3 hr p g k))
  -- the exponentials at (p, g, k)
  have hE : ∀ k : Fin n2,
      Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))))) (ix3 p g k)
      = Ideal.exp (X (ix3 p g k) - (Finset.univ : Finset (Fin n2)).fold max negInf (fun k : Fin n2 => X (ix3 p g k))) := by
    intro k
    show Ideal.exp (X (ix3 p g k) - broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))) (ix3 p g k)) = _
    rw [keepdims3_host_apply, hM]
  unfold hostSoftmax3 softmaxAt
  show Ideal.div _ _ = _
  rw [hE l, keepdims3_host_apply]
  refine congrArg (Ideal.div _) ?_
  show Ideal.hostReduceAdd hred _ (Ideal.ofBits .f32 0x00000000#32) (ix2 p g) = _
  rw [Ideal.hostReduceAdd_single hred hr, Ideal.ofBits_zero_f32, zero_add]
  exact Finset.sum_congr rfl fun k _ => by rw [lift3 hr p g k, hE k]

end Idealize.ShloMosaic.LastAxisSoftmax

end
-- ==== Proof.RefRow.lean ====
/-
  The reference's result, read at an index: row n, column j is one token's attention output.

  The reference projects all 32768 rows at once, regroups each to 8 heads, takes the batched inner products, the
  softmax along the last axis, the batched weighted sums, flattens head-major, projects back and adds the bias.
  Read at (n, j), every stage depends on row n of the three inputs only, and the composition is `token` of those rows.
-/
import proofs.«156535_j58875411694307_2_alg».proof.Proof.Gen.ReferenceIdeal.Read
import proofs.«156535_j58875411694307_2_alg».proof.Proof.HeadAttention
import proofs.«156535_j58875411694307_2_alg».proof.Proof.LibHostSoftmax3
import Idealize.ShloMosaic.Lib.Pipeline.Value
import Idealize.ShloMosaic.Lib.ValueIdx
import Idealize.ShloMosaic.PureOps.Ideal.Laws

noncomputable section

open scoped BigOperators

namespace Cert.ReferenceIdeal.Row

open Cert.ReferenceIdeal Cert.ReferenceIdeal.Gen Idealize.ShloMosaic Idealize.ShloMosaic.ValueIdx
open Idealize.ShloMosaic.LastAxisSoftmax Cert.HeadAttention

/-- The projected queries regrouped to heads, at (n, h, d): position (n·8 + h)·512 + d of the regrouped array is row n,
    column h·512 + d of the product. -/
theorem v1_at (x0 : (⟨S32768x512, .f32⟩ : BufTy).Contents (Elt Ideal)) (x3 : (⟨S512x4096, .f32⟩ : BufTy).Contents (Elt Ideal))
    (n : Fin 32768) (h : Fin 8) (d : Fin 512) :
    Read.val_main_v1 (F := Ideal) x0 x3 (ix3 n h d)
      = proj (fun k => x0 (ix2 n k)) (fun k c => x3 (ix2 k c)) h d := by
  rw [Read.val_main_v1_apply, Read.val_main_v0_apply]
  unfold proj
  refine Finset.sum_congr rfl fun k _ => ?_
  have el : Read.lidx_main_v0 (Read.idx_main_v1 (ix3 n h d)) k = ix2 n k := funext fun a => Fin.ext (by
    match a with
    | ⟨0, _⟩ =>
      show ((n.val * 8 + h.val) * 512 + d.val) / 4096 = n.val
      have := h.isLt; have := d.isLt; omega
    | ⟨1, _⟩ => rfl)
  have er : Read.ridx_main_v0 (Read.idx_main_v1 (ix3 n h d)) k = ix2 k (col h d) := funext fun a => Fin.ext (by
    match a with
    | ⟨0, _⟩ => rfl
    | ⟨1, _⟩ =>
      show ((n.val * 8 + h.val) * 512 + d.val) % 4096 = h.val * 512 + d.val
      have := h.isLt; have := d.isLt; omega)
  rw [el, er]

/-- The projected keys regrouped to heads, at (n, h, d): position (n·8 + h)·512 + d of the regrouped array is row n,
    column h·512 + d of the product. -/
theorem v3_at (x1 : (⟨S32768x512, .f32⟩ : BufTy).Contents (Elt Ideal)) (x4 : (⟨S512x4096, .f32⟩ : BufTy).Contents (Elt Ideal))
    (n : Fin 32768) (h : Fin 8) (d : Fin 512) :
    Read.val_main_v3 (F := Ideal) x1 x4 (ix3 n h d)
      = proj (fun k => x1 (ix2 n k)) (fun k c => x4 (ix2 k c)) h d := by
  rw [Read.val_main_v3_apply, Read.val_main_v2_apply]
  unfold proj
  refine Finset.sum_congr rfl fun k _ => ?_
  have el : Read.lidx_main_v2 (Read.idx_main_v3 (ix3 n h d)) k = ix2 n k := funext fun a => Fin.ext (by
    match a with
    | ⟨0, _⟩ =>
      show ((n.val * 8 + h.val) * 512 + d.val) / 4096 = n.val
      have := h.isLt; have := d.isLt; omega
    | ⟨1, _⟩ => rfl)
  have er : Read.ridx_main_v2 (Read.idx_main_v3 (ix3 n h d)) k = ix2 k (col h d) := funext fun a => Fin.ext (by
    match a with
    | ⟨0, _⟩ => rfl
    | ⟨1, _⟩ =>
      show ((n.val * 8 + h.val) * 512 + d.val) % 4096 = h.val * 512 + d.val
      have := h.isLt; have := d.isLt; omega)
  rw [el, er]

/-- The projected values regrouped to heads, at (n, h, d): position (n·8 + h)·512 + d of the regrouped array is row n,
    column h·512 + d of the product. -/
theorem v5_at (x2 : (⟨S32768x512, .f32⟩ : BufTy).Contents (Elt Ideal)) (x5 : (⟨S512x4096, .f32⟩ : BufTy).Contents (Elt Ideal))
    (n : Fin 32768) (h : Fin 8) (d : Fin 512) :
    Read.val_main_v5 (F := Ideal) x2 x5 (ix3 n h d)
      = proj (fun k => x2 (ix2 n k)) (fun k c => x5 (ix2 k c)) h d := by
  rw [Read.val_main_v5_apply, Read.val_main_v4_apply]
  unfold proj
  refine Finset.sum_congr rfl fun k _ => ?_
  have el : Read.lidx_main_v4 (Read.idx_main_v5 (ix3 n h d)) k = ix2 n k := funext fun a => Fin.ext (by
    match a with
    | ⟨0, _⟩ =>
      show ((n.val * 8 + h.val) * 512 + d.val) / 4096 = n.val
      have := h.isLt; have := d.isLt; omega
    | ⟨1, _⟩ => rfl)
  have er : Read.ridx_main_v4 (Read.idx_main_v5 (ix3 n h d)) k = ix2 k (col h d) := funext fun a => Fin.ext (by
    match a with
    | ⟨0, _⟩ => rfl
    | ⟨1, _⟩ =>
      show ((n.val * 8 + h.val) * 512 + d.val) % 4096 = h.val * 512 + d.val
      have := h.isLt; have := d.isLt; omega)
  rw [el, er]

/-- The batched inner products at (n, h, g): the score of the query's head h against the key's head g. -/
theorem v6_at (x0 x1 : (⟨S32768x512, .f32⟩ : BufTy).Contents (Elt Ideal)) (x3 x4 : (⟨S512x4096, .f32⟩ : BufTy).Contents (Elt Ideal))
    (n : Fin 32768) (h g : Fin 8) :
    Read.val_main_v6 (F := Ideal) x0 x1 x3 x4 (ix3 n h g)
      = score (proj (fun k => x0 (ix2 n k)) (fun k c => x3 (ix2 k c)))
          (proj (fun k => x1 (ix2 n k)) (fun k c => x4 (ix2 k c))) h g := by
  rw [Read.val_main_v6_apply]
  unfold score
  refine Finset.sum_congr rfl fun k _ => ?_
  have el : Read.lidx_main_v6 (ix3 n h g) k = ix3 n h k := funext fun a => Fin.ext (by
    match a with
    | ⟨0, _⟩ => rfl
    | ⟨1, _⟩ => rfl
    | ⟨2, _⟩ => rfl)
  have er : Read.ridx_main_v6 (ix3 n h g) k = ix3 n g k := funext fun a => Fin.ext (by
    match a with
    | ⟨0, _⟩ => rfl
    | ⟨1, _⟩ => rfl
    | ⟨2, _⟩ => rfl)
  rw [el, er, v1_at, v3_at]

/-- The eleven operations after the inner products are the host softmax along the last axis. -/
theorem v17_eq (x0 x1 : (⟨S32768x512, .f32⟩ : BufTy).Contents (Elt Ideal))
    (x3 x4 : (⟨S512x4096, .f32⟩ : BufTy).Contents (Elt Ideal)) :
    Read.val_main_v17 (F := Ideal) x0 x1 x3 x4
      = hostSoftmax3 (F := Ideal) (Read.val_main_v6 (F := Ideal) x0 x1 x3 x4) reducesTo_S32768x8x8_S32768x8_d2 h_S_
          bcast_S_S32768x8 bcast_S32768x8_S32768x8x1_0_1 bcast_S32768x8x1_S32768x8x8_0_1_2 := by
  unfold Read.val_main_v17 Read.val_main_v16 Read.val_main_v15 Read.val_main_v14 Read.val_main_v13 Read.val_main_v12
    Read.val_main_v11 Read.val_main_v10 Read.val_main_v9 Read.val_main_v8 Read.val_main_v7 Read.val_main_cst
    Read.val_main_cst_0 Read.val_main_cst_1 hostSoftmax3
  generalize Read.val_main_v6 (F := Ideal) x0 x1 x3 x4 = X
  rfl

/-- The softmax at (n, h, g): the weight of head h on head g. -/
theorem v17_at (x0 x1 : (⟨S32768x512, .f32⟩ : BufTy).Contents (Elt Ideal)) (x3 x4 : (⟨S512x4096, .f32⟩ : BufTy).Contents (Elt Ideal))
    (n : Fin 32768) (h g : Fin 8) :
    Read.val_main_v17 (F := Ideal) x0 x1 x3 x4 (ix3 n h g)
      = weight (proj (fun k => x0 (ix2 n k)) (fun k c => x3 (ix2 k c)))
          (proj (fun k => x1 (ix2 n k)) (fun k c => x4 (ix2 k c))) h g := by
  rw [v17_eq]
  refine (hostSoftmax3_apply (Read.val_main_v6 (F := Ideal) x0 x1 x3 x4) reducesTo_S32768x8x8_S32768x8_d2 (by decide) h_S_
    bcast_S_S32768x8 bcast_S32768x8_S32768x8x1_0_1 bcast_S32768x8x1_S32768x8x8_0_1_2 n h g).trans ?_
  unfold weight
  exact congrArg (fun f : Fin 8 → EReal => softmaxAt f g) (funext fun g' => v6_at x0 x1 x3 x4 n h g')

/-- The batched weighted sums at (n, h, d): the value's heads mixed with head h's weights. -/
theorem v18_at (x0 x1 x2 : (⟨S32768x512, .f32⟩ : BufTy).Contents (Elt Ideal))
    (x3 x4 x5 : (⟨S512x4096, .f32⟩ : BufTy).Contents (Elt Ideal)) (n : Fin 32768) (h : Fin 8) (d : Fin 512) :
    Read.val_main_v18 (F := Ideal) x0 x1 x2 x3 x4 x5 (ix3 n h d)
      = mix (weight (proj (fun k => x0 (ix2 n k)) (fun k c => x3 (ix2 k c)))
          (proj (fun k => x1 (ix2 n k)) (fun k c => x4 (ix2 k c))))
          (proj (fun k => x2 (ix2 n k)) (fun k c => x5 (ix2 k c))) h d := by
  rw [Read.val_main_v18_apply]
  unfold mix
  refine Finset.sum_congr rfl fun k _ => ?_
  have el : Read.lidx_main_v18 (ix3 n h d) k = ix3 n h k := funext fun a => Fin.ext (by
    match a with
    | ⟨0, _⟩ => rfl
    | ⟨1, _⟩ => rfl
    | ⟨2, _⟩ => rfl)
  have er : Read.ridx_main_v18 (ix3 n h d) k = ix3 n k d := funext fun a => Fin.ext (by
    match a with
    | ⟨0, _⟩ => rfl
    | ⟨1, _⟩ => rfl
    | ⟨2, _⟩ => rfl)
  rw [el, er, v17_at, v5_at]

/-- The mixed heads flattened head-major, at (n, c): feature c is lane c mod 512 of head c / 512. -/
theorem v19_at (x0 x1 x2 : (⟨S32768x512, .f32⟩ : BufTy).Contents (Elt Ideal))
    (x3 x4 x5 : (⟨S512x4096, .f32⟩ : BufTy).Contents (Elt Ideal)) (n : Fin 32768) (c : Fin 4096) :
    Read.val_main_v19 (F := Ideal) x0 x1 x2 x3 x4 x5 (ix2 n c)
      = Read.val_main_v18 (F := Ideal) x0 x1 x2 x3 x4 x5 (ix3 n (headOf c) (laneOf c)) := by
  rw [Read.val_main_v19_apply]
  refine congrArg _ (funext fun a => Fin.ext ?_)
  match a with
  | ⟨0, _⟩ =>
    show (n.val * 4096 + c.val) / 4096 = n.val
    have := c.isLt; omega
  | ⟨1, _⟩ =>
    show (n.val * 4096 + c.val) / 512 % 8 = c.val / 512
    have := c.isLt; omega
  | ⟨2, _⟩ =>
    show (n.val * 4096 + c.val) % 512 = c.val % 512
    omega

/-- The reference's result at (n, j). -/
theorem ref_apply (x0 x1 x2 : (⟨S32768x512, .f32⟩ : BufTy).Contents (Elt Ideal))
    (x3 x4 x5 : (⟨S512x4096, .f32⟩ : BufTy).Contents (Elt Ideal)) (x6 : (⟨S4096x512, .f32⟩ : BufTy).Contents (Elt Ideal))
    (x7 : (⟨S512, .f32⟩ : BufTy).Contents (Elt Ideal)) (n : Fin 32768) (j : Fin 512) :
    Cert.ReferenceIdeal.Read.val_main_v23 (F := Ideal) x0 x1 x2 x3 x4 x5 x6 x7 (ix2 n j)
      = token (fun k => x0 (ix2 n k)) (fun k => x1 (ix2 n k)) (fun k => x2 (ix2 n k))
          (fun k c => x3 (ix2 k c)) (fun k c => x4 (ix2 k c)) (fun k c => x5 (ix2 k c))
          (fun c j => x6 (ix2 c j)) (fun j => x7 (ix1 j)) j := by
  show Read.val_main_v20 (F := Ideal) x0 x1 x2 x3 x4 x5 x6 (ix2 n j) + Read.val_main_v22 (F := Ideal) x7 (ix2 n j) = _
  rw [Read.val_main_v20_apply, Read.val_main_v22_apply, Read.val_main_v21_apply]
  unfold token outp
  refine congrArg₂ (· + ·) (Finset.sum_congr rfl fun c _ => ?_)
    (congrArg x7 (funext fun a => Fin.ext (by match a with | ⟨0, _⟩ => rfl)))
  have el : Read.lidx_main_v20 (ix2 n j) c = ix2 n c := funext fun a => Fin.ext (by
    match a with
    | ⟨0, _⟩ => rfl
    | ⟨1, _⟩ => rfl)
  have er : Read.ridx_main_v20 (ix2 n j) c = ix2 c j := funext fun a => Fin.ext (by
    match a with
    | ⟨0, _⟩ => rfl
    | ⟨1, _⟩ => rfl)
  rw [el, er, v19_at, v18_at]

end Cert.ReferenceIdeal.Row

end
-- ==== Proof.lean ====
/-
  Cross-attention over the eight heads of each token: the kernel against its reference, on the extended reals.

  For each of 32768 tokens the query, key and value rows are projected to 8 heads of 512 lanes; head h's weights are
  the softmax over g of the inner products of the query's head h with the key's head g; the mixed head h is the
  weighted sum of the value's heads; the 4096 mixed numbers are projected back to 512 and a bias is added
  (`HeadAttention.token`, `attention`). The kernel computes this 128 tokens at a time, its inner products and weighted
  sums as broadcast products summed along an axis, head by head; the reference computes all tokens at once with
  batched products. Index by index both are the same finite sums of the same products and the same softmax, so no
  law of arithmetic beyond reading each operation at an index joins them, and the precondition is never opened.

  The kernel's result array after its run is `attention` of the arguments (the generated blockwise value leg, the
  block each grid point writes read at an index in `KernelRow`, the 256 blocks assembled in `WholeArray`); the
  reference's result is `attention` of the arguments (the generated run and its read-at-an-index lemmas, composed in
  `RefRow`). The three frames are the generated ones; the idealization rewrote nothing.
-/
import proofs.«156535_j58875411694307_2_alg».proof.Defs
import proofs.«156535_j58875411694307_2_alg».proof.Proof.Gen.Kernel
import proofs.«156535_j58875411694307_2_alg».proof.Proof.Gen.Kernel.Skeleton
import proofs.«156535_j58875411694307_2_alg».proof.Proof.Gen.Kernel.Launch
import proofs.«156535_j58875411694307_2_alg».proof.Proof.Gen.Kernel.Points
import proofs.«156535_j58875411694307_2_alg».proof.Proof.Gen.Kernel.Frame
import proofs.«156535_j58875411694307_2_alg».proof.Proof.Gen.KernelIdeal
import proofs.«156535_j58875411694307_2_alg».proof.Proof.Gen.KernelIdeal.Skeleton
import proofs.«156535_j58875411694307_2_alg».proof.Proof.Gen.KernelIdeal.Launch
import proofs.«156535_j58875411694307_2_alg».proof.Proof.Gen.KernelIdeal.Points
import proofs.«156535_j58875411694307_2_alg».proof.Proof.Gen.KernelIdeal.Frame
import proofs.«156535_j58875411694307_2_alg».proof.Proof.Gen.ReferenceIdeal
import proofs.«156535_j58875411694307_2_alg».proof.Proof.Gen.KernelIdeal.Value
import proofs.«156535_j58875411694307_2_alg».proof.Proof.Gen.ReferenceIdeal.Run
import proofs.«156535_j58875411694307_2_alg».proof.Proof.Gen.ReferenceIdeal.Read
import proofs.«156535_j58875411694307_2_alg».proof.Proof.Gen.Pre_finite_inputs
import proofs.«156535_j58875411694307_2_alg».proof.Proof.WholeArray
import proofs.«156535_j58875411694307_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx Cert.HeadAttention

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result, as an array, is the attention of its arguments: entry (n, j) is `token` of row n. -/
theorem ref_eq (x0 x1 x2 : (⟨Cert.ReferenceIdeal.S32768x512, .f32⟩ : BufTy).Contents (Elt Ideal))
    (x3 x4 x5 : (⟨Cert.ReferenceIdeal.S512x4096, .f32⟩ : BufTy).Contents (Elt Ideal))
    (x6 : (⟨Cert.ReferenceIdeal.S4096x512, .f32⟩ : BufTy).Contents (Elt Ideal))
    (x7 : (⟨Cert.ReferenceIdeal.S512, .f32⟩ : BufTy).Contents (Elt Ideal)) :
    Cert.ReferenceIdeal.Read.val_main_v23 (F := Ideal) x0 x1 x2 x3 x4 x5 x6 x7 = attention x0 x1 x2 x3 x4 x5 x6 x7 := by
  funext i
  obtain ⟨n, j, rfl⟩ : ∃ (n : Fin 32768) (j : Fin 512), i = ix2 n j := ⟨i 0, i 1, eq_ix2 i⟩
  exact Cert.ReferenceIdeal.Row.ref_apply x0 x1 x2 x3 x4 x5 x6 x7 n j

/-- From memories that agree on the arguments both runs end with the result array at the attention of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v23_eq, ref_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_ideal, frame_ref, preserves, algebraic⟩

end Cert.Proof

end
